-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S_ : Shape := ⟨0, ![]⟩

class Facts : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S32x512x2 : S_.BroadcastsInDim S32x512x2 (![] : Fin 0 → Fin S32x512x2.rank)
  reducesTo_S32x512x2_S_d0_1_2 : S32x512x2.ReducesTo [0, 1, 2] S_

variable [Facts]

def fn_part1 {F : FTy → Type} [FloatOps F] (main_v4 : IVec S32x512x2 32) (main_v13 : IVec S_ 1) (main_v16 : IVec S_ 1) : IVec S_ 1 :=
  let main_v17 : IVec S_ 1 := andi main_v13 main_v16
  let main_c_5 : IVec S_ 32 := constantI S_ 32 256#32
  let main_v18 : IVec S32x512x2 32 := broadcastInDim S32x512x2 ![] bcast_S_S32x512x2 main_c_5
  let main_v19 : IVec S32x512x2 1 := cmpi .slt main_v4 main_v18
  let main_c_6 : IVec S_ 1 := constantI S_ 1 1#1
  let main_v20 : IVec S_ 1 := (fun x v => Host.reduce IntOp.andi x v reducesTo_S32x512x2_S_d0_1_2 h_S_) main_v19 main_c_6
  let main_v21 : IVec S_ 1 := andi main_v17 main_v20
  main_v21

def fn {F : FTy → Type} [FloatOps F] (main_arg0 : FVec F S32x16x256x256 .f32) (main_arg1 : FVec F S32x512x2 .f32) (main_arg2 : IVec S32x512 32) (main_arg3 : IVec S32x512 32) : IVec S_ 1 :=
  let main_cst : FVec F S2 .f32 := constant S2 .f32 0x43800000#32
  let main_v0 : FVec F S1x1x2 .f32 := broadcastInDim S1x1x2 ![2] bcast_S2_S1x1x2_2 main_cst
  let main_v1 : FVec F S32x512x2 .f32 := broadcastInDim S32x512x2 ![0, 1, 2] bcast_S1x1x2_S32x512x2_0_1_2 main_v0
  let main_v2 : FVec F S32x512x2 .f32 := mulf main_arg1 main_v1
  let main_v3 : FVec F S32x512x2 .f32 := Host.floor main_v2
  let main_v4 : IVec S32x512x2 32 := fptosi 32 main_v3
  let main_v5 : FVec F S32x16x256x256 .f32 := Host.absf main_arg0
  let main_cst_0 : FVec F S_ .f32 := constant S_ .f32 0x7F800000#32
  let main_v6 : FVec F S32x16x256x256 .f32 := broadcastInDim S32x16x256x256 ![] bcast_S_S32x16x256x256 main_cst_0
  let main_v7 : IVec S32x16x256x256 1 := cmpf .olt main_v5 main_v6
  let main_c : IVec S_ 1 := constantI S_ 1 1#1
  let main_v8 : IVec S_ 1 := (fun x v => Host.reduce IntOp.andi x v reducesTo_S32x16x256x256_S_d0_1_2_3 h_S_) main_v7 main_c
  let main_v9 : FVec F S32x512x2 .f32 := Host.absf main_arg1
  let main_cst_1 : FVec F S_ .f32 := constant S_ .f32 0x7F800000#32
  let main_v10 : FVec F S32x512x2 .f32 := broadcastInDim S32x512x2 ![] bcast_S_S32x512x2 main_cst_1
  let main_v11 : IVec S32x512x2 1 := cmpf .olt main_v9 main_v10
  let main_c_2 : IVec S_ 1 := constantI S_ 1 1#1
  let main_v12 : IVec S_ 1 := (fun x v => Host.reduce IntOp.andi x v reducesTo_S32x512x2_S_d0_1_2 h_S_) main_v11 main_c_2
  let main_v13 : IVec S_ 1 := andi main_v8 main_v12
  let main_c_3 : IVec S_ 32 := constantI S_ 32 0#32
  let main_v14 : IVec S32x512x2 32 := broadcastInDim S32x512x2 ![] bcast_S_S32x512x2 main_c_3
  let main_v15 : IVec S32x512x2 1 := cmpi .sge main_v4 main_v14
  let main_c_4 : IVec S_ 1 := constantI S_ 1 1#1
  let main_v16 : IVec S_ 1 := (fun x v => Host.reduce IntOp.andi x v reducesTo_S32x512x2_S_d0_1_2 h_S_) main_v15 main_c_4
  fn_part1 (F := F) main_v4 main_v13 main_v16
-- ==== Kernel.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S32x512x1 : Shape := ⟨3, ![32, 512, 1]⟩
abbrev S_ : Shape := ⟨0, ![]⟩
abbrev S32x256x16x256 : Shape := ⟨4, ![32, 256, 16, 256]⟩
abbrev S32x256x4096 : Shape := ⟨3, ![32, 256, 4096]⟩
abbrev S32x1x512 : Shape := ⟨3, ![32, 1, 512]⟩
abbrev S32x1x1 : Shape := ⟨3, ![32, 1, 1]⟩
abbrev S1x256x4096 : Shape := ⟨3, ![1, 256, 4096]⟩
abbrev S1x1x512 : Shape := ⟨3, ![1, 1, 512]⟩
abbrev S1x1x1 : Shape := ⟨3, ![1, 1, 1]⟩
abbrev S256x4096 : Shape := ⟨2, ![256, 4096]⟩
abbrev S1x512 : Shape := ⟨2, ![1, 512]⟩
abbrev S256x512 : Shape := ⟨2, ![256, 512]⟩
abbrev S512x4096 : Shape := ⟨2, ![512, 4096]⟩
abbrev S512x16x256 : Shape := ⟨3, ![512, 16, 256]⟩
abbrev S512x1 : Shape := ⟨2, ![512, 1]⟩
abbrev S512x256 : Shape := ⟨2, ![512, 256]⟩
abbrev S512x1x256 : Shape := ⟨3, ![512, 1, 256]⟩
abbrev S512x16 : Shape := ⟨2, ![512, 16]⟩
abbrev S512x16x1 : Shape := ⟨3, ![512, 16, 1]⟩
abbrev S16x512 : Shape := ⟨2, ![16, 512]⟩
abbrev S512 : Shape := ⟨1, ![512]⟩
abbrev S512x512 : Shape := ⟨2, ![512, 512]⟩
abbrev S1 : Shape := ⟨1, ![1]⟩
abbrev S1x1 : Shape := ⟨2, ![1, 1]⟩
abbrev S32 : Shape := ⟨1, ![32]⟩

abbrev nBuf : Space → Nat
  | .hbm => 46
  | .vmem => 12
  | .smem => 0
  | _ => 0

abbrev bufTy : (tb : Table) → Fin (tcTables nBuf tb) → BufTy
  | .hbm, ⟨0, _⟩ => ⟨S32x16x256x256, .f32⟩
  | .hbm, ⟨1, _⟩ => ⟨S32x512x2, .f32⟩
  | .hbm, ⟨2, _⟩ => ⟨S32x512, .i32⟩
  | .hbm, ⟨3, _⟩ => ⟨S32x512, .i32⟩
  | .hbm, ⟨4, _⟩ => ⟨S2, .f32⟩
  | .hbm, ⟨5, _⟩ => ⟨S1x1x2, .f32⟩
  | .hbm, ⟨6, _⟩ => ⟨S32x512x2, .f32⟩
  | .hbm, ⟨7, _⟩ => ⟨S32x512x2, .f32⟩
  | .hbm, ⟨8, _⟩ => ⟨S32x512x2, .f32⟩
  | .hbm, ⟨9, _⟩ => ⟨S32x512x2, .i32⟩
  | .hbm, ⟨10, _⟩ => ⟨S32x512x1, .i32⟩
  | .hbm, ⟨11, _⟩ => ⟨S32x512, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32x512, .i32⟩
  | .hbm, ⟨16, _⟩ => ⟨S32x512, .i32⟩
  | .hbm, ⟨17, _⟩ => ⟨S_, .i32⟩
  | .hbm, ⟨18, _⟩ => ⟨S32x512, .i32⟩
  | .hbm, ⟨19, _⟩ => ⟨S32x512, .i32⟩
  | .hbm, ⟨20, _⟩ => ⟨S32x512x1, .i32⟩
  | .hbm, ⟨21, _⟩ => ⟨S32x512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S32x512, .i32⟩
  | .hbm, ⟨26, _⟩ => ⟨S32x512, .i32⟩
  | .hbm, ⟨27, _⟩ => ⟨S_, .i32⟩
  | .hbm, ⟨28, _⟩ => ⟨S32x512, .i32⟩
  | .hbm, ⟨29, _⟩ => ⟨S32x512, .i32⟩
  | .hbm, ⟨30, _⟩ => ⟨S32x256x16x256, .f32⟩
  | .hbm, ⟨31, _⟩ => ⟨S32x256x4096, .f32⟩
  | .hbm, ⟨32, _⟩ => ⟨S32x1x512, .i32⟩
  | .hbm, ⟨33, _⟩ => ⟨S32x1x512, .i32⟩
  | .hbm, ⟨34, _⟩ => ⟨S_, .i32⟩
  | .hbm, ⟨35, _⟩ => ⟨S32x512, .i32⟩
  | .hbm, ⟨36, _⟩ => ⟨S32x512, .i1⟩
  | .hbm, ⟨37, _⟩ => ⟨S32x512, .f32⟩
  | .hbm, ⟨38, _⟩ => ⟨S32x1x512, .f32⟩
  | .hbm, ⟨39, _⟩ => ⟨S32x1x512, .i32⟩
  | .hbm, ⟨40, _⟩ => ⟨S32x1x1, .f32⟩
  | .hbm, ⟨41, _⟩ => ⟨S32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x256x4096, .f32⟩
  | .local _ .vmem, ⟨1, _⟩ => ⟨S1x256x4096, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .f32⟩
  | .local _ .vmem, ⟨7, _⟩ => ⟨S1x1x512, .f32⟩
  | .local _ .vmem, ⟨8, _⟩ => ⟨S1x1x512, .i32⟩
  | .local _ .vmem, ⟨9, _⟩ => ⟨S1x1x512, .i32⟩
  | .local _ .vmem, ⟨10, _⟩ => ⟨S1x1x1, .f32⟩
  | .local _ .vmem, ⟨11, _⟩ => ⟨S1x1x1, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  slices_S32x512x2_S32x512x1_0_0_0 : S32x512x2.Slices ![0, 0, 0] S32x512x1
  shapeCasts_S32x512x1_S32x512 : S32x512x1.ShapeCasts S32x512
  bcast_S_S32x512 : S_.BroadcastsInDim S32x512 (![] : Fin 0 → Fin S32x512.rank)
  slices_S32x512x2_S32x512x1_0_0_1 : S32x512x2.Slices ![0, 0, 1] S32x512x1
  transposes_S32x16x256x256_S32x256x16x256_0_2_1_3 : S32x16x256x256.Transposes [0, 2, 1, 3] S32x256x16x256
  shapeCasts_S32x256x16x256_S32x256x4096 : S32x256x16x256.ShapeCasts S32x256x4096
  shapeCasts_S32x512_S32x1x512 : S32x512.ShapeCasts S32x1x512
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S256x512_d0_w32 : S256x512.Iotas .tc 32 [0]
  broadcasts_S1x512_S256x512 : S1x512.Broadcasts S256x512
  natLt_1_32 : 1 < 32
  shapeCasts_S512x4096_S512x16x256 : S512x4096.ShapeCasts S512x16x256
  transposes_S1x512_p1_0_S512x1 : S1x512.Transposes [1, 0] S512x1
  iota_S512x256_d1_w32 : S512x256.Iotas .tc 32 [1]
  broadcasts_S512x1_S512x256 : S512x1.Broadcasts S512x256
  shapeCasts_S512x256_S512x1x256 : S512x256.ShapeCasts S512x1x256
  broadcasts_S512x1x256_S512x16x256 : S512x1x256.Broadcasts S512x16x256
  reduces_S512x16x256_S512x16 : S512x16x256.Reduces [2] S512x16
  shapeCasts_S512x16_S512x16x1 : S512x16.ShapeCasts S512x16x1
  shapeCasts_S512x16x1_S512x16 : S512x16x1.ShapeCasts S512x16
  transposes_S512x16_p1_0_S16x512 : S512x16.Transposes [1, 0] S16x512
  reduces_S16x512_S512 : S16x512.Reduces [0] S512
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  reduces_S1x512_S1 : S1x512.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S32x1x1_S32 : S32x1x1.ShapeCasts S32
  reducesTo_S32_S_d0 : S32.ReducesTo [0] S_
  h_S_ : 0 < S_.numel
  dot_S256x512_S256x4096_S512x4096_0_0_1_1_n_n_wf : DotDims.WF S256x512 S256x4096 S512x4096 [0] [0] [1] [1] [] []
  dot_S16x512_S16x512_S512x512_0_0_1_1_n_n_wf : DotDims.WF S16x512 S16x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .i32 = 32 ∨ (Rect.block (s := S32x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .i32 = 32 ∨ (Rect.block (s := S32x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .i32 = 32 ∨ (Rect.block (s := S32x1x512) S1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S32x1x1.size a
  hwx0_5 : ∀ i : grid0.Coords, EltTy.bits .f32 = 32 ∨ (Rect.block (s := S32x1x1) S1x1x1.size (cc0_transform_5 i) (hinb0_5 i)).WholeWords (EltTy.packing .f32)

variable [Facts₀]

def dot_S256x512_S256x4096_S512x4096_0_0_1_1_n_n : DotDims S256x512 S256x4096 S512x4096 where
  lhsContracting := [0]
  rhsContracting := [0]
  lhsNonContracting := [1]
  rhsNonContracting := [1]
  lhsBatch := []
  rhsBatch := []
  wf := dot_S256x512_S256x4096_S512x4096_0_0_1_1_n_n_wf
def dot_S16x512_S16x512_S512x512_0_0_1_1_n_n : DotDims S16x512 S16x512 S512x512 where
  lhsContracting := [0]
  rhsContracting := [0]
  lhsNonContracting := [1]
  rhsNonContracting := [1]
  lhsBatch := []
  rhsBatch := []
  wf := dot_S16x512_S16x512_S512x512_0_0_1_1_n_n_wf

abbrev win0_0 : Pipeline.Window sig grid0 :=
  Pipeline.Window.ofSpec (Memref.whole main_v12) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S32x512x1 : Shape := ⟨3, ![32, 512, 1]⟩
abbrev S_ : Shape := ⟨0, ![]⟩
abbrev S32x16x512 : Shape := ⟨3, ![32, 16, 512]⟩
abbrev S32x1x512 : Shape := ⟨3, ![32, 1, 512]⟩
abbrev S32x512x512 : Shape := ⟨3, ![32, 512, 512]⟩
abbrev S32 : Shape := ⟨1, ![32]⟩

abbrev nBuf : Space → Nat
  | .hbm => 102
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x512x2, .f32⟩
  | .hbm, ⟨2, _⟩ => ⟨S32x512, .i32⟩
  | .hbm, ⟨3, _⟩ => ⟨S32x512, .i32⟩
  | .hbm, ⟨4, _⟩ => ⟨S2, .f32⟩
  | .hbm, ⟨5, _⟩ => ⟨S1x1x2, .f32⟩
  | .hbm, ⟨6, _⟩ => ⟨S32x512x2, .f32⟩
  | .hbm, ⟨7, _⟩ => ⟨S32x512x2, .f32⟩
  | .hbm, ⟨8, _⟩ => ⟨S32x512x2, .f32⟩
  | .hbm, ⟨9, _⟩ => ⟨S32x512x2, .i32⟩
  | .hbm, ⟨10, _⟩ => ⟨S32x512x1, .i32⟩
  | .hbm, ⟨11, _⟩ => ⟨S32x512, .i32⟩
  | .hbm, ⟨12, _⟩ => ⟨S32x512x1, .i32⟩
  | .hbm, ⟨13, _⟩ => ⟨S32x512, .i32⟩
  | .hbm, ⟨14, _⟩ => ⟨S_, .i32⟩
  | .hbm, ⟨15, _⟩ => ⟨S32x512, .i32⟩
  | .hbm, ⟨16, _⟩ => ⟨S32x512, .i1⟩
  | .hbm, ⟨17, _⟩ => ⟨S_, .i32⟩
  | .hbm, ⟨18, _⟩ => ⟨S32x512, .i32⟩
  | .hbm, ⟨19, _⟩ => ⟨S32x512, .i32⟩
  | .hbm, ⟨20, _⟩ => ⟨S32x512, .i32⟩
  | .hbm, ⟨21, _⟩ => ⟨S_, .i32⟩
  | .hbm, ⟨22, _⟩ => ⟨S32x512, .i32⟩
  | .hbm, ⟨23, _⟩ => ⟨S32x512, .i1⟩
  | .hbm, ⟨24, _⟩ => ⟨S_, .i32⟩
  | .hbm, ⟨25, _⟩ => ⟨S32x512, .i32⟩
  | .hbm, ⟨26, _⟩ => ⟨S32x512, .i32⟩
  | .hbm, ⟨27, _⟩ => ⟨S32x512, .i32⟩
  | .hbm, ⟨28, _⟩ => ⟨S32x512x1, .i32⟩
  | .hbm, ⟨29, _⟩ => ⟨S32x512x1, .i32⟩
  | .hbm, ⟨30, _⟩ => ⟨S32x512x2, .i32⟩
  | .hbm, ⟨31, _⟩ => ⟨S32x16x512, .f32⟩
  | .hbm, ⟨32, _⟩ => ⟨S_, .i32⟩
  | .hbm, ⟨33, _⟩ => ⟨S32x512, .i32⟩
  | .hbm, ⟨34, _⟩ => ⟨S32x512, .i1⟩
  | .hbm, ⟨35, _⟩ => ⟨S32x512, .f32⟩
  | .hbm, ⟨36, _⟩ => ⟨S32x512x1, .f32⟩
  | .hbm, ⟨37, _⟩ => ⟨S32x1x512, .f32⟩
  | .hbm, ⟨38, _⟩ => ⟨S32x512x512, .f32⟩
  | .hbm, ⟨39, _⟩ => ⟨S32x512x512, .f32⟩
  | .hbm, ⟨40, _⟩ => ⟨S32x512x512, .f32⟩
  | .hbm, ⟨41, _⟩ => ⟨S32x512x1, .i32⟩
  | .hbm, ⟨42, _⟩ => ⟨S32x1x512, .i32⟩
  | .hbm, ⟨43, _⟩ => ⟨S32x512x512, .i32⟩
  | .hbm, ⟨44, _⟩ => ⟨S32x512x512, .i32⟩
  | .hbm, ⟨45, _⟩ => ⟨S32x512x512, .i1⟩
  | .hbm, ⟨46, _⟩ => ⟨S32x512x512, .f32⟩
  | .hbm, ⟨47, _⟩ => ⟨S32x16x512, .f32⟩
  | .hbm, ⟨48, _⟩ => ⟨S_, .f32⟩
  | .hbm, ⟨49, _⟩ => ⟨S32x512, .f32⟩
  | .hbm, ⟨50, _⟩ => ⟨S_, .f32⟩
  | .hbm, ⟨51, _⟩ => ⟨S32x512, .f32⟩
  | .hbm, ⟨52, _⟩ => ⟨S32x512, .f32⟩
  | .hbm, ⟨53, _⟩ => ⟨S32x512x512, .f32⟩
  | .hbm, ⟨54, _⟩ => ⟨S_, .f32⟩
  | .hbm, ⟨55, _⟩ => ⟨S32x512x512, .f32⟩
  | .hbm, ⟨56, _⟩ => ⟨S32x512x512, .f32⟩
  | .hbm, ⟨57, _⟩ => ⟨S32x512x1, .f32⟩
  | .hbm, ⟨58, _⟩ => ⟨S32x1x512, .f32⟩
  | .hbm, ⟨59, _⟩ => ⟨S32x512x512, .f32⟩
  | .hbm, ⟨60, _⟩ => ⟨S32x512x512, .f32⟩
  | .hbm, ⟨61, _⟩ => ⟨S32x512x512, .f32⟩
  | .hbm, ⟨62, _⟩ => ⟨S_, .f32⟩
  | .hbm, ⟨63, _⟩ => ⟨S32x512x512, .f32⟩
  | .hbm, ⟨64, _⟩ => ⟨S32x512x512, .f32⟩
  | .hbm, ⟨65, _⟩ => ⟨S32x512x512, .f32⟩
  | .hbm, ⟨66, _⟩ => ⟨S32x512x512, .f32⟩
  | .hbm, ⟨67, _⟩ => ⟨S_, .f32⟩
  | .hbm, ⟨68, _⟩ => ⟨S32x512x512, .f32⟩
  | .hbm, ⟨69, _⟩ => ⟨S32x512x512, .f32⟩
  | .hbm, ⟨70, _⟩ => ⟨S_, .f32⟩
  | .hbm, ⟨71, _⟩ => ⟨S32x512x512, .f32⟩
  | .hbm, ⟨72, _⟩ => ⟨S32x512x512, .f32⟩
  | .hbm, ⟨73, _⟩ => ⟨S_, .f32⟩
  | .hbm, ⟨74, _⟩ => ⟨S32x512x512, .f32⟩
  | .hbm, ⟨75, _⟩ => ⟨S32x512x512, .i1⟩
  | .hbm, ⟨76, _⟩ => ⟨S_, .f32⟩
  | .hbm, ⟨77, _⟩ => ⟨S32x512x512, .f32⟩
  | .hbm, ⟨78, _⟩ => ⟨S32x512x512, .i1⟩
  | .hbm, ⟨79, _⟩ => ⟨S32x512x512, .i1⟩
  | .hbm, ⟨80, _⟩ => ⟨S_, .f32⟩
  | .hbm, ⟨81, _⟩ => ⟨S_, .f32⟩
  | .hbm, ⟨82, _⟩ => ⟨S32x512x512, .f32⟩
  | .hbm, ⟨83, _⟩ => ⟨S32x512x512, .f32⟩
  | .hbm, ⟨84, _⟩ => ⟨S32x512x512, .f32⟩
  | .hbm, ⟨85, _⟩ => ⟨S32x512x512, .f32⟩
  | .hbm, ⟨86, _⟩ => ⟨S32x512x512, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32x512x512, .f32⟩
  | .hbm, ⟨94, _⟩ => ⟨S32x512x512, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_cst_13 : Ref sig .tc := ⟨.hbm, 81, rfl⟩
abbrev main_call0_v0 : Ref sig .tc := ⟨.hbm, 82, rfl⟩
abbrev main_call0_v1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  concatenates_S32x512x1_S32x512x1_S32x512x2_d2 : Shape.Concatenates [S32x512x1, S32x512x1] S32x512x2 2
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  reducesTo_S32x16x512_S32x512_d1 : S32x16x512.ReducesTo [1] S32x512
  h_S_ : 0 < S_.numel
  bcast_S_S32x512x512 : S_.BroadcastsInDim S32x512x512 (![] : Fin 0 → Fin S32x512x512.rank)
  reducesTo_S32x512_S32_d1 : S32x512.ReducesTo [1] S32
  bcast_S_S32 : S_.BroadcastsInDim S32 (![] : Fin 0 → Fin S32.rank)
  reducesTo_S32x512x512_S32_d1_2 : S32x512x512.ReducesTo [1, 2] S32
  reducesTo_S32_S_d0 : S32.ReducesTo [0] S_
  gather_S32x16x256x256_S32x512x2_S32x16x512_1_23_0_0_23_2_11611_wf : GatherDims.WF S32x16x256x256 S32x512x2 S32x16x512 [1] [2, 3] [0] [2, 3] [0] 2 ![1, 16, 1, 1]
  dot_S32x16x512_S32x16x512_S32x512x512_1_1_2_2_0_0_wf : DotDims.WF S32x16x512 S32x16x512 S32x512x512 [1] [1] [2] [2] [0] [0]

variable [Facts₀]

def gather_S32x16x256x256_S32x512x2_S32x16x512_1_23_0_0_23_2_11611 : GatherDims S32x16x256x256 S32x512x2 S32x16x512 where
  offsetDims := [1]
  collapsedSliceDims := [2, 3]
  operandBatchingDims := [0]
  startIndicesBatchingDims := [0]
  startIndexMap := [2, 3]
  indexVectorDim := 2
  sliceSizes := ![1, 16, 1, 1]
  wf := gather_S32x16x256x256_S32x512x2_S32x16x512_1_23_0_0_23_2_11611_wf
def dot_S32x16x512_S32x16x512_S32x512x512_1_1_2_2_0_0 : DotDims S32x16x512 S32x16x512 S32x512x512 where
  lhsContracting := [1]
  rhsContracting := [1]
  lhsNonContracting := [2]
  rhsNonContracting := [2]
  lhsBatch := [0]
  rhsBatch := [0]
  wf := dot_S32x16x512_S32x16x512_S32x512x512_1_1_2_2_0_0_wf

class Facts : Prop extends Facts₀ where

variable [Facts]
-- ==== Proof.Spec.lean ====
/-
  The tag loss as one function of the four argument arrays, on the extended reals.

  For a sample b, keypoint n has the pixel (y, x) = floor(kpt[b, n, :] * 256) converted to a 32-bit integer, and its
  embedding is the column e[:, n] = pred[b, :, y, x] (16 channels).  With
      sq n     = (sum_d e[d, n]^2) / 16
      dot n m  = (sum_d e[d, n] * e[d, m]) * (1/16)
      sim n m  = 2 / (1 + exp (sq n + sq m - 2 * dot n m))
  the sample's loss is
      (sum_n sum_m (sim n m - [tag n = tag m])^2 * (mask n * mask m) * 10) / max ((sum_n mask n)^2) 1
  and the result is the mean of the 32 samples' losses.  The float literals stay the words the programs print; the two
  facts about them that the comparison of the two programs needs are proved here: multiplying by the word of 1/16
  is dividing by the word of 16 on every extended real, and the similarity of a real exponent is positive.
-/
import Idealize.ShloMosaic.PureOps.Ideal
import Idealize.ShloMosaic.Lib.ValueIdx

noncomputable section

open scoped BigOperators

namespace TagLoss

open Idealize.ShloMosaic Idealize.ShloMosaic.ValueIdx

abbrev SPred : Shape := ⟨4, ![32, 16, 256, 256]⟩
abbrev SKpt : Shape := ⟨3, ![32, 512, 2]⟩
abbrev SRow : Shape := ⟨2, ![32, 512]⟩

/-- The words of 16, 1/16, 2, 1, 10, 32 and 256 as extended reals. -/
abbrev w16 : EReal := Ideal.ofBits .f32 0x41800000#32
abbrev wInv16 : EReal := Ideal.ofBits .f32 0x3D800000#32
abbrev w2 : EReal := Ideal.ofBits .f32 0x40000000#32
abbrev w1 : EReal := Ideal.ofBits .f32 0x3F800000#32
abbrev w10 : EReal := Ideal.ofBits .f32 0x41200000#32
abbrev w32 : EReal := Ideal.ofBits .f32 0x42000000#32
abbrev w256 : EReal := Ideal.ofBits .f32 0x43800000#32

/-- A keypoint coordinate's pixel: floor of 256 times it, as a 32-bit integer. -/
def pix (k : EReal) : BitVec 32 := Ideal.fptosi 32 (Ideal.liftRound Int.floor (k * w256))

/-- The pixels lie in the 256 x 256 plane (as signed integers: 0 ≤ p < 256). -/
def InRange (x1 : SKpt.Idx → EReal) : Prop := ∀ i, (pix (x1 i)).toNat < 256

/-- Every entry is a real number. -/
def AllReal {ι : Type} (x : ι → EReal) : Prop := ∀ i, ∃ r : ℝ, x i = (r : EReal)

/-- Coordinate j of keypoint n of sample b, as a position on an axis of extent 256. -/
def pos (x1 : SKpt.Idx → EReal) (b : Fin 32) (n : Fin 512) (j : Fin 2) : Fin 256 :=
  ⟨(pix (x1 (ix3 b n j))).toNat % 256, Nat.mod_lt _ (by decide)⟩

/-- Channel d of the embedding of keypoint n of sample b. -/
def emb (x0 : SPred.Idx → EReal) (x1 : SKpt.Idx → EReal) (b : Fin 32) (d : Fin 16) (n : Fin 512) : EReal :=
  x0 (ix4 b d (pos x1 b n 0) (pos x1 b n 1))

/-- Visibility as 0 or 1. -/
def maskOf (v : BitVec 32) : EReal := (((IntOp.cmpi .sgt v 0#32).toNat : ℝ) : EReal)
/-- Equality of two tags as 0 or 1. -/
def sameTag (a b : BitVec 32) : EReal := (((IntOp.cmpi .eq a b).toNat : ℝ) : EReal)

section sample
variable (e : Fin 16 → Fin 512 → EReal) (mk : Fin 512 → EReal) (ts : Fin 512 → Fin 512 → EReal)

def sq (n : Fin 512) : EReal := Ideal.div (∑ d, e d n * e d n) w16
def dot (n m : Fin 512) : EReal := (∑ d, e d n * e d m) * wInv16
def expo (n m : Fin 512) : EReal := (sq e n + sq e m) - w2 * dot e n m
def sim (x : EReal) : EReal := Ideal.div w2 (w1 + Ideal.exp x)
def dis (n m : Fin 512) : EReal := (sim (expo e n m) - ts n m) * (sim (expo e n m) - ts n m)
def total : EReal := ∑ n, ∑ m, dis e ts n m * (mk n * mk m) * w10
def count : EReal := ∑ n, mk n
def perSample : EReal := Ideal.div (total e mk ts) (max (count mk * count mk) w1)
end sample

/-- The loss: the mean over the 32 samples. -/
def loss (x0 : SPred.Idx → EReal) (x1 : SKpt.Idx → EReal) (x2 x3 : SRow.Idx → BitVec 32) : EReal :=
  Ideal.div (∑ b : Fin 32, perSample (emb x0 x1 b) (fun n => maskOf (x2 (ix2 b n)))
    (fun n m => sameTag (x3 (ix2 b n)) (x3 (ix2 b m)))) w32

end TagLoss

end
-- ==== Proof.PreFacts.lean ====
/-
  From the stated precondition to the two facts the comparison of the two programs uses.

  The precondition is a conjunction of four "for all entries" statements: every entry of the prediction array and of the
  keypoint array has absolute value below +∞, and every pixel index floor(256 · k), converted to a 32-bit integer,
  is at least 0 and below 256 as a signed integer.  An extended real whose absolute value max x (−x) is below +∞ is
  neither infinity, so it is a real number; a 32-bit word that is at least 0 and below 256 read signed has the
  unsigned value below 256.
-/
import Idealize.ShloMosaic.Lib.ReduceAll
import Idealize.ShloMosaic.Lib.ValueIdx
import Idealize.ShloMosaic.PureOps.Ideal.Laws
import proofs.«153252_j80238579023903_2_alg».proof.Pre_finite_inputs
import proofs.«153252_j80238579023903_2_alg».proof.Proof.Spec

noncomputable section

namespace TagLoss

open Idealize.ShloMosaic Idealize.ShloMosaic.ValueIdx

/-- The rank-0 shape has one index. -/
instance : Subsingleton Cert.Pre_finite_inputs.S_.Idx := ⟨fun a b => funext fun d => d.elim0⟩

/-- |x| < +∞ (the word 0x7F800000 is +∞) leaves only the real numbers: at either infinity |x| is +∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- A 32-bit word p with 0 ≤ p and p < 256 as signed integers has unsigned value below 256: a word whose signed
    reading is nonnegative reads the same unsigned. -/
theorem toNat_lt_of_cmp (p : BitVec 32) (h0 : IntOp.cmpi .sge p 0#32 = 1#1) (h1 : IntOp.cmpi .slt p 256#32 = 1#1) :
    p.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0; rw [e1] at h1
  have hp := BitVec.toInt_eq_toNat_cond p
  have hlt := p.isLt
  split_ifs at hp <;> omega

/-- The precondition gives: every entry of the prediction array is a real number, and every pixel index lies in
    [0, 256).  (Its second conjunct, the finiteness of the keypoint array, is not needed.)  The entry of the pixel-index
    array at i is pix (x1 i) by unfolding: the broadcast constant reads the word of 256 at every index. -/
theorem pre_facts [Cert.Pre_finite_inputs.Facts] (x0 : FVec Ideal Cert.Pre_finite_inputs.S32x16x256x256 .f32)
    (x1 : FVec Ideal Cert.Pre_finite_inputs.S32x512x2 .f32) (x2 x3 : IVec Cert.Pre_finite_inputs.S32x512 32)
    (h : Cert.Pre_finite_inputs.fn (F := Ideal) x0 x1 x2 x3 = fun _ => 1#1) :
    TagLoss.AllReal x0 ∧ TagLoss.InRange x1 := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, -⟩ := IntOp.andi_eq_one.1 h12
  refine ⟨fun i => ?_, fun i => ?_⟩
  · exact real_of_abs_lt_top (x0 i) (Host.reduce_andi_all _ _ _ _ _ h1 i)
  · exact toNat_lt_of_cmp _ (Host.reduce_andi_all _ _ _ _ _ h3 i) (Host.reduce_andi_all _ _ _ _ _ h4 i)

end TagLoss

end
-- ==== Proof.KerEmb.lean ====
import proofs.«153252_j80238579023903_2_alg».proof.Proof.Gen.KernelIdeal.Skeleton
import proofs.«153252_j80238579023903_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

/-! # The embedding the kernel body gathers

The body selects, for keypoint n, row y_n of the sample's [256, 16·256] view by a product with the one-hot matrix
[h = y_n], and then lane x_n of every channel by a lane sum against the one-hot mask [w = x_n]: channel d of the
result is the block's entry (y_n, d·256 + x_n). -/

namespace Cert.KernelIdeal.Body

open Cert.KernelIdeal Cert.KernelIdeal.Gen Idealize.ShloMosaic Idealize.ShloMosaic.ValueIdx

/-- A one-bit equality test widened to 32 bits and read as a signed integer is 1 when the words agree and 0 otherwise. -/
theorem indicator (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have hb : (a == b) = false := by simpa using h
    simp [hb, h]

/-- The lane mask of keypoint n: 1 at the lane equal to the keypoint's column word, 0 elsewhere, whatever the channel. -/
theorem lane_onehot (v5 : Vec Ideal S1x1x512 .i32) (n : Fin 512) (d : Fin 16) (w : Fin 256) :
    broadcastTo S512x16x256 (shapeCast S512x1x256 (sitofp (F := Ideal) .f32 (extui 32 (cmpi .eq (iota .tc S512x256 32 [1] iota_S512x256_d1_w32)
      (broadcastTo S512x256 (transpose S512x1 [1, 0] (shapeCast S1x512 v5 shapeCasts_S1x1x512_S1x512) transposes_S1x512_p1_0_S512x1) broadcasts_S512x1_S512x256)) natLt_1_32))
      shapeCasts_S512x256_S512x1x256) broadcasts_S512x1x256_S512x16x256 (ix3 n d w)
    = if BitVec.ofNat 32 w.val = v5 (ix3 (0 : Fin 1) (0 : Fin 1) n) then (1 : EReal) else 0 := by
  refine (broadcastTo_apply _ _ (ix3 n d w) (ix3 n (0 : Fin 1) w) (fun a => by match a with | ⟨0,_⟩ => rfl | ⟨1,_⟩ => rfl | ⟨2,_⟩ => rfl)).trans ?_
  refine (shapeCast_apply _ _ (ix3 n (0 : Fin 1) w) (ix2 n w) (by simp [Shape.rowMajor_val_two, Shape.rowMajor_val_three])).trans ?_
  refine (indicator _ _).trans ?_
  rw [iota_single_apply]
  rw [broadcastTo_apply _ _ (ix2 n w) (ix2 n (0 : Fin 1)) (fun a => by match a with | ⟨0,_⟩ => rfl | ⟨1,_⟩ => rfl)]
  rw [transpose_apply [1,0] _ _ (ix2 n (0 : Fin 1)) (ix2 (0 : Fin 1) n) (fun b => by match b with | ⟨0,_⟩ => rfl | ⟨1,_⟩ => rfl)]
  rw [shapeCast_apply _ _ (ix2 (0 : Fin 1) n) (ix3 (0 : Fin 1) (0 : Fin 1) n) (by simp [Shape.rowMajor_val_two, Shape.rowMajor_val_three])]

/-- The row mask of keypoint n: 1 at the row equal to the keypoint's row word, 0 elsewhere. -/
theorem row_onehot (v3 : Vec Ideal S1x1x512 .i32) (h : Fin 256) (n : Fin 512) :
    truncf (F := Ideal) .bf16 (sitofp .f32 (extui 32 (cmpi .eq (iota .tc S256x512 32 [0] iota_S256x512_d0_w32)
      (broadcastTo S256x512 (shapeCast S1x512 v3 shapeCasts_S1x1x512_S1x512) broadcasts_S1x512_S256x512)) natLt_1_32)) bitsLt_bf16_f32 (ix2 h n)
    = if BitVec.ofNat 32 h.val = v3 (ix3 (0 : Fin 1) (0 : Fin 1) n) then (1 : EReal) else 0 := by
  refine (indicator _ _).trans ?_
  rw [iota_single_apply]
  rw [broadcastTo_apply _ _ (ix2 h n) (ix2 (0 : Fin 1) n) (fun a => by match a with | ⟨0,_⟩ => rfl | ⟨1,_⟩ => rfl)]
  rw [shapeCast_apply _ _ (ix2 (0 : Fin 1) n) (ix3 (0 : Fin 1) (0 : Fin 1) n) (by simp [Shape.rowMajor_val_two, Shape.rowMajor_val_three])]

/-- The block's rows as a matrix: row h, flat column j of the [256, 4096] view is entry (0, h, j) of the block. -/
theorem rows_entry (v0 : Vec Ideal S1x256x4096 .f32) (h : Fin 256) (j : Fin 4096) :
    truncf (F := Ideal) .bf16 (shapeCast S256x4096 v0 shapeCasts_S1x256x4096_S256x4096) bitsLt_bf16_f32 (ix2 h j) = v0 (ix3 (0 : Fin 1) h j) := by
  show shapeCast S256x4096 v0 shapeCasts_S1x256x4096_S256x4096 (ix2 h j) = _
  rw [shapeCast_apply _ _ (ix2 h j) (ix3 (0 : Fin 1) h j) (by simp [Shape.rowMajor_val_two, Shape.rowMajor_val_three])]

/-- A word below 256 is the word of exactly one natural below 256: its own value. -/
theorem ofNat_eq_iff (h : ℕ) (hh : h < 256) (y : BitVec 32) : BitVec.ofNat 32 h = y ↔ h = y.toNat := by
  constructor
  · intro e; rw [← e, BitVec.toNat_ofNat]; omega
  · intro e; rw [e]; simp

/-- A sum against the indicator of one position picks that position's term (0 · x = 0 on the extended reals, so no
    finiteness is needed). -/
theorem sum_onehot_mul (y : BitVec 32) (hy : y.toNat < 256) (f : Fin 256 → EReal) :
    ∑ k : Fin 256, (if BitVec.ofNat 32 k.val = y then (1 : EReal) else 0) * f k = f ⟨y.toNat, hy⟩ := by
  rw [Finset.sum_eq_single (⟨y.toNat, hy⟩ : Fin 256)]
  · rw [if_pos ((ofNat_eq_iff _ hy y).2 rfl), one_mul]
  · intro k _ hk
    rw [if_neg (fun e => hk (Fin.ext ((ofNat_eq_iff _ k.isLt y).1 e))), zero_mul]
  · intro hn; exact absurd (Finset.mem_univ _) hn

theorem sum_mul_onehot (y : BitVec 32) (hy : y.toNat < 256) (f : Fin 256 → EReal) :
    ∑ k : Fin 256, f k * (if BitVec.ofNat 32 k.val = y then (1 : EReal) else 0) = f ⟨y.toNat, hy⟩ := by
  rw [← sum_onehot_mul y hy f]
  exact Finset.sum_congr rfl fun k _ => mul_comm _ _

/-! ## The two matrix products at an output index: both contract axis 0 of both operands -/

abbrev D1 := dot_S256x512_S256x4096_S512x4096_0_0_1_1_n_n
abbrev D2 := dot_S16x512_S16x512_S512x512_0_0_1_1_n_n

theorem D1_l0 (i : S512x4096.Idx) (q : D1.contr.Idx) : (D1.lhsIdx i q 0).val = (q ⟨0, by decide⟩).val :=
  D1.lhsIdx_val_of_single rfl i q
theorem D1_l1 (i : S512x4096.Idx) (q : D1.contr.Idx) : (D1.lhsIdx i q 1).val = (i 0).val := by
  unfold DotDims.lhsIdx
  rw [dif_neg (show ¬(1 : Fin S256x512.rank) ∈ D1.lhsBatch by decide), dif_pos (show (1 : Fin S256x512.rank) ∈ D1.lhsNonContracting by decide)]
  rfl
theorem D1_r0 (i : S512x4096.Idx) (q : D1.contr.Idx) : (D1.rhsIdx i q 0).val = (q ⟨0, by decide⟩).val :=
  D1.rhsIdx_val_of_single rfl i q
theorem D1_r1 (i : S512x4096.Idx) (q : D1.contr.Idx) : (D1.rhsIdx i q 1).val = (i 1).val := by
  unfold DotDims.rhsIdx
  rw [dif_neg (show ¬(1 : Fin S256x4096.rank) ∈ D1.rhsBatch by decide), dif_pos (show (1 : Fin S256x4096.rank) ∈ D1.rhsNonContracting by decide)]
  rfl

/-- Entry (p, j) of the first product is the sum over the 256 rows k of A[k, p] · B[k, j]. -/
theorem mm1_apply (A : FVec Ideal S256x512 .bf16) (B : FVec Ideal S256x4096 .bf16) (p : Fin 512) (j : Fin 4096) :
    matmul D1 none A B (constant S512x4096 .f32 0x00000000#32) (ix2 p j) = ∑ k : Fin 256, A (ix2 k p) * B (ix2 k j) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p j) ((contrEquiv1 D1 256 rfl rfl).symm k) = ix2 k p := funext fun a => Fin.ext (by
    match a with
    | ⟨0, _⟩ => exact (D1_l0 _ _).trans hk
    | ⟨1, _⟩ => exact D1_l1 _ _)
  have er : D1.rhsIdx (ix2 p j) ((contrEquiv1 D1 256 rfl rfl).symm k) = ix2 k j := funext fun a => Fin.ext (by
    match a with
    | ⟨0, _⟩ => exact (D1_r0 _ _).trans hk
    | ⟨1, _⟩ => exact D1_r1 _ _)
  rw [el, er]

/-- The flat column of channel d, lane w in the [256, 16·256] view of a sample. -/
def col (d : Fin 16) (w : Fin 256) : Fin 4096 := ⟨d.val * 256 + w.val, by have := d.isLt; have := w.isLt; omega⟩

/-- Entry (n, d, w) of the row-selected product: the block's entry at row y_n, channel d, lane w. -/
theorem selected_row (v0 : Vec Ideal S1x256x4096 .f32) (v3 : Vec Ideal S1x1x512 .i32) (n : Fin 512) (d : Fin 16) (w : Fin 256)
    (hy : (v3 (ix3 (0 : Fin 1) (0 : Fin 1) n)).toNat < 256) :
    shapeCast S512x16x256 (matmul D1 none
        (truncf (F := Ideal) .bf16 (sitofp .f32 (extui 32 (cmpi .eq (iota .tc S256x512 32 [0] iota_S256x512_d0_w32)
          (broadcastTo S256x512 (shapeCast S1x512 v3 shapeCasts_S1x1x512_S1x512) broadcasts_S1x512_S256x512)) natLt_1_32)) bitsLt_bf16_f32)
        (truncf (F := Ideal) .bf16 (shapeCast S256x4096 v0 shapeCasts_S1x256x4096_S256x4096) bitsLt_bf16_f32)
        (constant S512x4096 .f32 0x00000000#32)) shapeCasts_S512x4096_S512x16x256 (ix3 n d w)
    = v0 (ix3 (0 : Fin 1) ⟨(v3 (ix3 (0 : Fin 1) (0 : Fin 1) n)).toNat, hy⟩ (col d w)) := by
  refine (shapeCast_apply _ _ (ix3 n d w) (ix2 n (col d w)) (by
    simp only [Shape.rowMajor_val_two, Shape.rowMajor_val_three, col]
    show n.val * 4096 + (d.val * 256 + w.val) = (n.val * 16 + d.val) * 256 + w.val
    omega)).trans ?_
  refine (mm1_apply _ _ n (col d w)).trans ?_
  refine (Finset.sum_congr rfl (fun h _ => congrArg₂ (· * ·) (row_onehot v3 h n) (rows_entry v0 h (col d w)))).trans ?_
  exact sum_onehot_mul _ hy (fun h => v0 (ix3 (0 : Fin 1) h (col d w)))

/-- The embedding the body gathers: channel d of keypoint n is the block's entry at the keypoint's row and, within
    channel d, its lane. -/
theorem emb_entry (v0 : Vec Ideal S1x256x4096 .f32) (v3 v5 : Vec Ideal S1x1x512 .i32) (d : Fin 16) (n : Fin 512)
    (hy : (v3 (ix3 (0 : Fin 1) (0 : Fin 1) n)).toNat < 256) (hx : (v5 (ix3 (0 : Fin 1) (0 : Fin 1) n)).toNat < 256) :
    k0_pay2 (F := Ideal) v0 v3 v5 (ix2 d n)
      = v0 (ix3 (0 : Fin 1) ⟨(v3 (ix3 (0 : Fin 1) (0 : Fin 1) n)).toNat, hy⟩ (col d ⟨(v5 (ix3 (0 : Fin 1) (0 : Fin 1) n)).toNat, hx⟩)) := by
  unfold k0_pay2
  refine (transpose_apply [1, 0] _ _ (ix2 d n) (ix2 n d) (fun b => by match b with | ⟨0, _⟩ => rfl | ⟨1, _⟩ => rfl)).trans ?_
  refine (shapeCast_apply _ _ (ix2 n d) (ix3 n d (0 : Fin 1)) (by simp [Shape.rowMajor_val_two, Shape.rowMajor_val_three])).trans ?_
  refine (shapeCast_apply _ _ (ix3 n d (0 : Fin 1)) (ix2 n d) (by simp [Shape.rowMajor_val_two, Shape.rowMajor_val_three])).trans ?_
  refine (Ideal.multiReduction_add_single _ _ _ _ _ (ix2 n d)).trans ?_
  have hl : ∀ w : Fin 256, reduces_S512x16x256_S512x16.lift (ix2 n d) w = ix3 n d w := fun w => funext fun a => Fin.ext (by
    match a with
    | ⟨0, _⟩ => rfl
    | ⟨1, _⟩ => rfl
    | ⟨2, _⟩ => rfl)
  show ∑ w : Fin 256, _ = _
  refine (Finset.sum_congr rfl (fun w _ => ?_)).trans
    (sum_mul_onehot _ hx (fun w => v0 (ix3 (0 : Fin 1) ⟨(v3 (ix3 (0 : Fin 1) (0 : Fin 1) n)).toNat, hy⟩ (col d w))))
  rw [hl w]
  exact congrArg₂ (· * ·) (selected_row v0 v3 n d w hy) (lane_onehot v5 n d w)

end Cert.KernelIdeal.Body
end
-- ==== Proof.KerPairs.lean ====
import proofs.«153252_j80238579023903_2_alg».proof.Proof.KerEmb

noncomputable section

open scoped BigOperators

/-! # The pairwise stage of the kernel body, read at an index

From the gathered embedding E (16 channels by 512 keypoints): the mean squares as a row, the scaled channel dot
products as the second matrix product, and what the body stores — the double sum of the weighted squared differences
over the square of the visible count, floored at 1. -/

namespace Cert.KernelIdeal.Body

open Cert.KernelIdeal Cert.KernelIdeal.Gen Idealize.ShloMosaic Idealize.ShloMosaic.ValueIdx

/-! ## Layout steps of the pairwise stage, read at an index -/

/-- A row vector [1, 512] turned into a column and stretched over the lanes: entry (n, m) is the row's entry n. -/
theorem bcast_col {α : Type} (R : S1x512.Idx → α) (n m : Fin 512) :
    broadcastTo S512x512 (transpose S512x1 [1, 0] R transposes_S1x512_p1_0_S512x1) broadcasts_S512x1_S512x512 (ix2 n m)
      = R (ix2 (0 : Fin 1) n) := by
  refine (broadcastTo_apply _ _ (ix2 n m) (ix2 n (0 : Fin 1)) (fun a => by match a with | ⟨0, _⟩ => rfl | ⟨1, _⟩ => rfl)).trans ?_
  exact transpose_apply [1, 0] _ _ (ix2 n (0 : Fin 1)) (ix2 (0 : Fin 1) n) (fun b => by match b with | ⟨0, _⟩ => rfl | ⟨1, _⟩ => rfl)

/-- A row vector [1, 512] stretched over the rows: entry (n, m) is the row's entry m. -/
theorem bcast_row {α : Type} (R : S1x512.Idx → α) (n m : Fin 512) :
    broadcastTo S512x512 R broadcasts_S1x512_S512x512 (ix2 n m) = R (ix2 (0 : Fin 1) m) :=
  broadcastTo_apply _ _ (ix2 n m) (ix2 (0 : Fin 1) m) (fun a => by match a with | ⟨0, _⟩ => rfl | ⟨1, _⟩ => rfl)

/-- A [1, 1, 512] block viewed as the row [1, 512]. -/
theorem block_row {α : Type} (v : S1x1x512.Idx → α) (k : Fin 512) :
    shapeCast S1x512 v shapeCasts_S1x1x512_S1x512 (ix2 (0 : Fin 1) k) = v (ix3 (0 : Fin 1) (0 : Fin 1) k) :=
  shapeCast_apply _ _ (ix2 (0 : Fin 1) k) (ix3 (0 : Fin 1) (0 : Fin 1) k) (by simp [Shape.rowMajor_val_two, Shape.rowMajor_val_three])

/-- The channel sum of squares of keypoint k. -/
theorem col_sumsq (E : FVec Ideal S16x512 .f32) (k : Fin 512) :
    multiReduction .add [0] S512 (mulf E E) 0x00000000#32 reduces_S16x512_S512 (.inl rfl) rfl (ix1 k)
      = ∑ d : Fin 16, E (ix2 d k) * E (ix2 d k) := by
  refine (Ideal.multiReduction_add_single _ _ _ _ _ (ix1 k)).trans ?_
  have hl : ∀ d : Fin 16, reduces_S16x512_S512.lift (ix1 k) d = ix2 d k := fun d => funext fun a => Fin.ext (by
    match a with
    | ⟨0, _⟩ => rfl
    | ⟨1, _⟩ => rfl)
  show ∑ d : Fin 16, _ = _
  refine Finset.sum_congr rfl fun d _ => ?_
  rw [hl d]; rfl

/-- The mean square of keypoint k, as the row the body keeps it in. -/
theorem row_sq (E : FVec Ideal S16x512 .f32) (k : Fin 512) :
    divf (shapeCast S1x512 (multiReduction .add [0] S512 (mulf E E) 0x00000000#32 reduces_S16x512_S512 (.inl rfl) rfl) shapeCasts_S512_S1x512)
        (broadcast S1x512 (Scalar.ofBits (F := Ideal) .f32 0x41800000#32)) (ix2 (0 : Fin 1) k)
      = TagLoss.sq (fun d n => E (ix2 d n)) k := by
  show Ideal.div (shapeCast S1x512 _ shapeCasts_S512_S1x512 (ix2 (0 : Fin 1) k)) TagLoss.w16 = _
  rw [shapeCast_apply _ _ (ix2 (0 : Fin 1) k) (ix1 k) (by simp [Shape.rowMajor_val_two, Shape.rowMajor_val_one])]
  rw [col_sumsq]
  rfl

theorem pay3_entry (v0 : Vec Ideal S1x256x4096 .f32) (v3 v5 : Vec Ideal S1x1x512 .i32) (n m : Fin 512) :
    k0_pay3 (F := Ideal) v0 v3 v5 (ix2 n m)
      = TagLoss.sq (fun d k => k0_pay2 (F := Ideal) v0 v3 v5 (ix2 d k)) n + TagLoss.sq (fun d k => k0_pay2 (F := Ideal) v0 v3 v5 (ix2 d k)) m := by
  unfold k0_pay3
  generalize k0_pay2 (F := Ideal) v0 v3 v5 = E
  refine (congrArg₂ (· + ·) (bcast_col _ n m) (bcast_row _ n m)).trans ?_
  exact congrArg₂ (· + ·) (row_sq E n) (row_sq E m)

theorem D2_l0 (i : S512x512.Idx) (q : D2.contr.Idx) : (D2.lhsIdx i q 0).val = (q ⟨0, by decide⟩).val :=
  D2.lhsIdx_val_of_single rfl i q
theorem D2_l1 (i : S512x512.Idx) (q : D2.contr.Idx) : (D2.lhsIdx i q 1).val = (i 0).val := by
  unfold DotDims.lhsIdx
  rw [dif_neg (show ¬(1 : Fin S16x512.rank) ∈ D2.lhsBatch by decide), dif_pos (show (1 : Fin S16x512.rank) ∈ D2.lhsNonContracting by decide)]
  rfl
theorem D2_r0 (i : S512x512.Idx) (q : D2.contr.Idx) : (D2.rhsIdx i q 0).val = (q ⟨0, by decide⟩).val :=
  D2.rhsIdx_val_of_single rfl i q
theorem D2_r1 (i : S512x512.Idx) (q : D2.contr.Idx) : (D2.rhsIdx i q 1).val = (i 1).val := by
  unfold DotDims.rhsIdx
  rw [dif_neg (show ¬(1 : Fin S16x512.rank) ∈ D2.rhsBatch by decide), dif_pos (show (1 : Fin S16x512.rank) ∈ D2.rhsNonContracting by decide)]
  rfl

/-- Entry (p, q) of the second product is the sum over the 16 channels k of A[k, p] · B[k, q]. -/
theorem mm2_apply (A B : FVec Ideal S16x512 .bf16) (p q : Fin 512) :
    matmul D2 none A B (constant S512x512 .f32 0x00000000#32) (ix2 p q) = ∑ k : Fin 16, A (ix2 k p) * B (ix2 k q) := by
  simp only [matmul]
  rw [Ideal.matmul_constant_zero_apply, ← Equiv.sum_comp (contrEquiv1 D2 16 rfl rfl).symm]
  refine Finset.sum_congr rfl fun k _ => ?_
  have hk := contrEquiv1_symm_val D2 16 rfl rfl k
  have el : D2.lhsIdx (ix2 p q) ((contrEquiv1 D2 16 rfl rfl).symm k) = ix2 k p := funext fun a => Fin.ext (by
    match a with
    | ⟨0, _⟩ => exact (D2_l0 _ _).trans hk
    | ⟨1, _⟩ => exact D2_l1 _ _)
  have er : D2.rhsIdx (ix2 p q) ((contrEquiv1 D2 16 rfl rfl).symm k) = ix2 k q := funext fun a => Fin.ext (by
    match a with
    | ⟨0, _⟩ => exact (D2_r0 _ _).trans hk
    | ⟨1, _⟩ => exact D2_r1 _ _)
  rw [el, er]

theorem pay4_entry (v0 : Vec Ideal S1x256x4096 .f32) (v3 v5 : Vec Ideal S1x1x512 .i32) (n m : Fin 512) :
    k0_pay4 (F := Ideal) v0 v3 v5 (ix2 n m) = TagLoss.w2 * TagLoss.dot (fun d k => k0_pay2 (F := Ideal) v0 v3 v5 (ix2 d k)) n m := by
  unfold k0_pay4
  generalize k0_pay2 (F := Ideal) v0 v3 v5 = E
  show TagLoss.w2 * ((matmul (F := Ideal) D2 none _ _ _ (ix2 n m)) * TagLoss.wInv16) = _
  rw [mm2_apply]
  rfl

/-- A one-bit test widened to 32 bits and read signed is the bit read unsigned. -/
theorem widened_bit (a b : BitVec 32) :
    FloatOps.sitofp (F := Ideal) .f32 ((IntOp.cmpi .eq a b).setWidth 32) = TagLoss.sameTag a b := by
  show (((((IntOp.cmpi .eq a b).setWidth 32).toInt : ℤ) : ℝ) : EReal) = ((((IntOp.cmpi .eq a b).toNat : ℕ) : ℝ) : EReal)
  generalize IntOp.cmpi .eq a b = x
  rcases BitVec.eq_zero_or_eq_one x with h | h <;> subst h <;> simp

/-- What the body stores: the sample's loss from the exponent's two halves a (the sum of the two mean squares) and
    b (twice the scaled dot product), the mask row and the tag row. -/
theorem pay1_entry (a b : FVec Ideal S512x512 .f32) (v49 : Vec Ideal S1x1x512 .f32) (v52 : Vec Ideal S1x1x512 .i32) :
    k0_pay1 (F := Ideal) a b v49 v52 (ix3 (0 : Fin 1) (0 : Fin 1) (0 : Fin 1))
      = Ideal.div (∑ n : Fin 512, ∑ m : Fin 512,
            (TagLoss.sim (a (ix2 n m) - b (ix2 n m)) - TagLoss.sameTag (v52 (ix3 (0 : Fin 1) (0 : Fin 1) n)) (v52 (ix3 (0 : Fin 1) (0 : Fin 1) m)))
            * (TagLoss.sim (a (ix2 n m) - b (ix2 n m)) - TagLoss.sameTag (v52 (ix3 (0 : Fin 1) (0 : Fin 1) n)) (v52 (ix3 (0 : Fin 1) (0 : Fin 1) m)))
            * (v49 (ix3 (0 : Fin 1) (0 : Fin 1) n) * v49 (ix3 (0 : Fin 1) (0 : Fin 1) m)) * TagLoss.w10)
          (max ((∑ n : Fin 512, v49 (ix3 (0 : Fin 1) (0 : Fin 1) n)) * (∑ n : Fin 512, v49 (ix3 (0 : Fin 1) (0 : Fin 1) n))) TagLoss.w1) := by
  unfold k0_pay1
  refine (shapeCast_apply _ _ (ix3 (0 : Fin 1) (0 : Fin 1) (0 : Fin 1)) (ix2 (0 : Fin 1) (0 : Fin 1)) (by simp [Shape.rowMajor_val_two, Shape.rowMajor_val_three])).trans ?_
  show Ideal.div (shapeCast S1x1 _ shapeCasts_S1_S1x1 (ix2 (0 : Fin 1) (0 : Fin 1)))
      (max (shapeCast S1x1 _ shapeCasts_S1_S1x1 (ix2 (0 : Fin 1) (0 : Fin 1)) * shapeCast S1x1 _ shapeCasts_S1_S1x1 (ix2 (0 : Fin 1) (0 : Fin 1))) TagLoss.w1) = _
  have hc : ∀ (S : FVec Ideal S1 .f32), shapeCast S1x1 S shapeCasts_S1_S1x1 (ix2 (0 : Fin 1) (0 : Fin 1)) = S (ix1 (0 : Fin 1)) := fun S =>
    shapeCast_apply _ _ (ix2 (0 : Fin 1) (0 : Fin 1)) (ix1 (0 : Fin 1)) (by simp [Shape.rowMajor_val_two, Shape.rowMajor_val_one])
  rw [hc, hc]
  -- the visible count
  have hK : multiReduction (F := Ideal) .add [1] S1 (shapeCast S1x512 v49 shapeCasts_S1x1x512_S1x512) 0x00000000#32 reduces_S1x512_S1 (.inl rfl) rfl (ix1 (0 : Fin 1))
      = ∑ n : Fin 512, v49 (ix3 (0 : Fin 1) (0 : Fin 1) n) := by
    refine (Ideal.multiReduction_add_single _ _ _ _ _ (ix1 (0 : Fin 1))).trans ?_
    show ∑ n : Fin 512, _ = _
    refine Finset.sum_congr rfl fun n _ => ?_
    have hl : reduces_S1x512_S1.lift (ix1 (0 : Fin 1)) n = ix2 (0 : Fin 1) n := funext fun c => Fin.ext (by
      match c with
      | ⟨0, _⟩ => rfl
      | ⟨1, _⟩ => rfl)
    rw [hl]; exact block_row v49 n
  rw [hK]
  refine congrArg (fun t => Ideal.div t _) ?_
  -- the double sum
  refine (Ideal.multiReduction_add_single _ _ _ _ _ (ix1 (0 : Fin 1))).trans ?_
  show ∑ n : Fin 512, _ = _
  refine Finset.sum_congr rfl fun n _ => ?_
  have hl0 : reduces_S512x1_S1.lift (ix1 (0 : Fin 1)) n = ix2 n (0 : Fin 1) := funext fun c => Fin.ext (by
    match c with
    | ⟨0, _⟩ => rfl
    | ⟨1, _⟩ => rfl)
  rw [hl0]
  refine (shapeCast_apply _ _ (ix2 n (0 : Fin 1)) (ix1 n) (by simp [Shape.rowMajor_val_two, Shape.rowMajor_val_one])).trans ?_
  refine (Ideal.multiReduction_add_single _ _ _ _ _ (ix1 n)).trans ?_
  show ∑ m : Fin 512, _ = _
  refine Finset.sum_congr rfl fun m _ => ?_
  have hl1 : reduces_S512x512_S512.lift (ix1 n) m = ix2 n m := funext fun c => Fin.ext (by
    match c with
    | ⟨0, _⟩ => rfl
    | ⟨1, _⟩ => rfl)
  rw [hl1]
  simp only [mulf, subf, divf, addf, exp, sitofp, extui, cmpi, broadcast]
  simp only [bcast_row, block_row, widened_bit]
  rw [bcast_col (shapeCast S1x512 v52 shapeCasts_S1x1x512_S1x512) n m, bcast_col (shapeCast S1x512 v49 shapeCasts_S1x1x512_S1x512) n m, block_row, block_row]
  rfl

end Cert.KernelIdeal.Body
end
-- ==== Proof.KerBody.lean ====
import proofs.«153252_j80238579023903_2_alg».proof.Proof.KerPairs
import proofs.«153252_j80238579023903_2_alg».proof.Proof.Gen.KernelIdeal.Frame

noncomputable section

open scoped BigOperators

/-! # What the kernel body leaves in its output block

For input blocks whose two index rows hold words below 256, the one entry of the output block is the sample's loss
(the specification's perSample) of the embedding read off the sample block at those rows and lanes, the mask row and
the tag row. -/

namespace Cert.KernelIdeal.Body

open Cert.KernelIdeal Cert.KernelIdeal.Gen Idealize.ShloMosaic Idealize.ShloMosaic.ValueIdx

/-- The embedding read off a sample block: channel d of keypoint n is the entry at the keypoint's row word and, within
    channel d, its lane word (both taken below 256). -/
def blockEmb (x0 : Vec Ideal S1x256x4096 .f32) (x1 x2 : Vec Ideal S1x1x512 .i32) (d : Fin 16) (n : Fin 512) : EReal :=
  x0 (ix3 (0 : Fin 1) ⟨(x1 (ix3 (0 : Fin 1) (0 : Fin 1) n)).toNat % 256, Nat.mod_lt _ (by decide)⟩
    (col d ⟨(x2 (ix3 (0 : Fin 1) (0 : Fin 1) n)).toNat % 256, Nat.mod_lt _ (by decide)⟩))

theorem body_value (v0 : Vec Ideal S1x256x4096 .f32) (v3 v5 : Vec Ideal S1x1x512 .i32) (v49 : Vec Ideal S1x1x512 .f32) (v52 : Vec Ideal S1x1x512 .i32)
    (hy : ∀ n : Fin 512, (v3 (ix3 (0 : Fin 1) (0 : Fin 1) n)).toNat < 256) (hx : ∀ n : Fin 512, (v5 (ix3 (0 : Fin 1) (0 : Fin 1) n)).toNat < 256) :
    k0_pay1 (F := Ideal) (k0_pay3 v0 v3 v5) (k0_pay4 v0 v3 v5) v49 v52 (ix3 (0 : Fin 1) (0 : Fin 1) (0 : Fin 1))
      = TagLoss.perSample (blockEmb v0 v3 v5) (fun n => v49 (ix3 (0 : Fin 1) (0 : Fin 1) n))
          (fun n m => TagLoss.sameTag (v52 (ix3 (0 : Fin 1) (0 : Fin 1) n)) (v52 (ix3 (0 : Fin 1) (0 : Fin 1) m))) := by
  rw [pay1_entry]
  have he : (fun (d : Fin 16) (k : Fin 512) => k0_pay2 (F := Ideal) v0 v3 v5 (ix2 d k)) = blockEmb v0 v3 v5 :=
    funext fun d => funext fun n => by
      rw [emb_entry v0 v3 v5 d n (hy n) (hx n)]
      unfold blockEmb
      have e1 : (v3 (ix3 (0 : Fin 1) (0 : Fin 1) n)).toNat % 256 = (v3 (ix3 (0 : Fin 1) (0 : Fin 1) n)).toNat := Nat.mod_eq_of_lt (hy n)
      have e2 : (v5 (ix3 (0 : Fin 1) (0 : Fin 1) n)).toNat % 256 = (v5 (ix3 (0 : Fin 1) (0 : Fin 1) n)).toNat := Nat.mod_eq_of_lt (hx n)
      simp only [e1, e2]
  simp only [pay3_entry, pay4_entry, he]
  rfl

theorem hz3 : (![0, 0, 0] : Fin 3 → Nat) = fun _ => 0 := funext fun a => by fin_cases a <;> rfl

/-- The output block after the body, as a function of the five input blocks. -/
theorem out_value (x0 : Vec Ideal S1x256x4096 .f32) (x1 x2 : Vec Ideal S1x1x512 .i32) (x3 : Vec Ideal S1x1x512 .f32) (x4 : Vec Ideal S1x1x512 .i32)
    (hy : ∀ n : Fin 512, (x1 (ix3 (0 : Fin 1) (0 : Fin 1) n)).toNat < 256) (hx : ∀ n : Fin 512, (x2 (ix3 (0 : Fin 1) (0 : Fin 1) n)).toNat < 256) :
    out0_5 (F := Ideal) x0 x1 x2 x3 x4 = fun _ => TagLoss.perSample (blockEmb x0 x1 x2) (fun n => x3 (ix3 (0 : Fin 1) (0 : Fin 1) n))
          (fun n m => TagLoss.sameTag (x4 (ix3 (0 : Fin 1) (0 : Fin 1) n)) (x4 (ix3 (0 : Fin 1) (0 : Fin 1) m))) := by
  unfold out0_5
  rw [View.canon_unit_zero hz3]
  simp only [View.ld_unit_zero (S := S1x256x4096) hz3, View.ld_unit_zero (S := S1x1x512) hz3]
  funext j
  have hj : j = ix3 (0 : Fin 1) (0 : Fin 1) (0 : Fin 1) := funext fun a => Fin.ext (by
    match a with
    | ⟨0, _⟩ => have h := (j 0).isLt; change (j 0).val < 1 at h; show (j 0).val = 0; omega
    | ⟨1, _⟩ => have h := (j 1).isLt; change (j 1).val < 1 at h; show (j 1).val = 0; omega
    | ⟨2, _⟩ => have h := (j 2).isLt; change (j 2).val < 1 at h; show (j 2).val = 0; omega)
  rw [hj]
  exact body_value x0 x1 x2 x3 x4 hy hx

end Cert.KernelIdeal.Body
end
-- ==== Proof.KoutBlocks.lean ====
/-
  From the 32 grid points' blocks to the kernel's output array.

  The output array has shape [32, 1, 1] and grid point t writes the block of shape [1, 1, 1] at block index (t, 0, 0):
  the one entry (t, 0, 0).  So if, for every point t, the body leaves the constant block of value P t, the array
  ends holding P b at (b, 0, 0) for every sample b: every index is covered by exactly the block of its own first coordinate.
-/
import proofs.«153252_j80238579023903_2_alg».proof.Proof.Gen.KernelIdeal.Frame
import Idealize.ShloMosaic.Lib.Pipeline.Value
import Idealize.ShloMosaic.Lib.ValueIdx

noncomputable section

namespace Cert.KernelIdeal.Kout

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The sample a grid point works on: the point's number, as one of the 32 samples. -/
abbrev sample (t : Fin cfg0.N) : Fin 32 := ⟨t.val, Nat.lt_of_lt_of_eq t.isLt (show cfg0.N = 32 from N_0)⟩

/-- The grid point that works on a sample. -/
abbrev point (b : Fin 32) : Fin cfg0.N := ⟨b.val, Nat.lt_of_lt_of_eq b.isLt (show 32 = cfg0.N from N_0.symm)⟩

/-- The output array holding the per-sample values: P b at (b, 0, 0). -/
def arrOf (P : Fin 32 → EReal) : S32x1x1.Idx → EReal := fun i => P ⟨(i 0).val, (i 0).isLt⟩

theorem arrOf_ix3 (P : Fin 32 → EReal) (b : Fin 32) : arrOf P (ix3 b (0 : Fin 1) (0 : Fin 1)) = P b := rfl

/-- The output window's block index at point t is (t, 0, 0) (decided over the 32 points). -/
theorem index5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)

/-- What point t writes back is block t of the array of the per-sample values, when the body leaves the constant
    block of the point's sample's value. -/
theorem flushed_eq (c : Dev nD) (P : Fin 32 → EReal)
    (hP : ∀ t : Fin cfg0.N, out0_5 (iblk m c 0 t) (iblk m c 1 t) (iblk m c 2 t) (iblk m c 3 t) (iblk m c 4 t)
      = (fun _ => P (sample t) : S1x1x1.Idx → EReal))
    (t : Fin cfg0.N) :
    (dats m 0 c).flushed 5 t = ((cfg0.win 5).blk t).view.read (Elt Ideal) (arrOf P) := by
  show (cfg0.win 5).cut (grid0.coords t) ((dats m 0 c).after 5 t) = _
  rw [after0_5, hP t]
  obtain ⟨e0, e1, e2⟩ := index5 t
  funext j
  show P (sample t) = arrOf P (((cfg0.win 5).blk t).view.emb j)
  unfold arrOf
  congr 1
  apply Fin.ext
  show t.val = win0_5.index t (0 : Fin 3) * 1 + 1 * (j 0).val
  have hj : (j 0).val < 1 := (j 0).isLt
  omega

/-- An index of the array is in point t's block iff each coordinate is in the block's range on its axis. -/
theorem mem_blk (t : Fin cfg0.N) (i : S32x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v20).slice (win0_5.rect t)).set ↔ _
  rw [View.set_slice_whole, Rect.mem_set_unit]
  exact Iff.rfl

/-- Every index (b, 0, 0) of the array is in the block of point b, which is written back. -/
theorem cover (i : S32x1x1.Idx) : ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 1 := (i 2).isLt
  obtain ⟨e0, e1, e2⟩ := index5 (point ⟨(i 0).val, h0⟩)
  have e0' : win0_5.index (point ⟨(i 0).val, h0⟩) (0 : Fin 3) = (i 0).val := e0
  refine ⟨point ⟨(i 0).val, h0⟩, flush0_5 _, ?_⟩
  rw [mem_blk]
  intro a
  match a with
  | ⟨0, _⟩ =>
    show win0_5.index (point ⟨(i 0).val, h0⟩) (0 : Fin 3) * 1 ≤ (i 0).val ∧ (i 0).val < win0_5.index (point ⟨(i 0).val, h0⟩) (0 : Fin 3) * 1 + 1
    omega
  | ⟨1, _⟩ =>
    show win0_5.index (point ⟨(i 0).val, h0⟩) (1 : Fin 3) * 1 ≤ (i 1).val ∧ (i 1).val < win0_5.index (point ⟨(i 0).val, h0⟩) (1 : Fin 3) * 1 + 1
    omega
  | ⟨2, _⟩ =>
    show win0_5.index (point ⟨(i 0).val, h0⟩) (2 : Fin 3) * 1 ≤ (i 2).val ∧ (i 2).val < win0_5.index (point ⟨(i 0).val, h0⟩) (2 : Fin 3) * 1 + 1
    omega

/-- The output array after the run: the per-sample values, sample b's at (b, 0, 0). -/
theorem final (c : Dev nD) (P : Fin 32 → EReal)
    (hP : ∀ t : Fin cfg0.N, out0_5 (iblk m c 0 t) (iblk m c 1 t) (iblk m c 2 t) (iblk m c 3 t) (iblk m c 4 t)
      = (fun _ => P (sample t) : S1x1x1.Idx → EReal)) :
    (dats m 0 c).arrAt 5 cfg0.N = arrOf P :=
  (dats m 0 c).arrAt_eq_of_cover 5 (arrOf P) (fun t _ => flushed_eq m c P hP t) cover

end Cert.KernelIdeal.Kout

end
-- ==== Proof.KinBlocks.lean ====
/-
  The input windows' blocks read through their windows.

  Each of the five input arrays has the 32 samples on its first axis, and grid point t's block of each is the slab of
  sample t: block index (t, 0, 0), block extents the array's other two axes.  So entry (0, h, j) of window 0's block at
  point t is entry (t, h, j) of its array, and entry (0, 0, n) of the block of each of the four row windows is entry
  (t, 0, n) of that window's array: a block's coordinate is block index times block extent plus the coordinate inside.
-/
import proofs.«153252_j80238579023903_2_alg».proof.Proof.Gen.KernelIdeal.Frame
import proofs.«153252_j80238579023903_2_alg».proof.Proof.KoutBlocks
import Idealize.ShloMosaic.Lib.Pipeline.Value
import Idealize.ShloMosaic.Lib.ValueIdx

noncomputable section

namespace Cert.KernelIdeal.Kout

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The input windows' block indices at point t are (t, 0, 0) (each decided over the 32 points) -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem index1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem index2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem index3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem index4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)

/-! ## The blocks at an entry -/

/-- Window 0's block at point t is slab t of its array (the embedding planes re-laid as [32, 256, 4096]): entry
    (0, h, j) of the block is entry (t, h, j) of the array. -/
theorem iblk0_apply (c : Dev nD) (t : Fin cfg0.N) (h : Fin 256) (j : Fin 4096) :
    iblk m c 0 t (ix3 (0 : Fin 1) h j) = V m c main_v12 (ix3 (sample t) h j) := by
  obtain ⟨e0, e1, e2⟩ := index0 t
  unfold iblk
  show V m c main_v12 (((cfg0.win 0).blk t).view.emb (ix3 (0 : Fin 1) h j)) = V m c main_v12 (ix3 (sample t) h j)
  refine congrArg (V m c main_v12) (funext fun a => Fin.ext ?_)
  match a with
  | ⟨0, _⟩ => show win0_0.index t (0 : Fin 3) * 1 + 1 * 0 = t.val; omega
  | ⟨1, _⟩ => show win0_0.index t (1 : Fin 3) * 256 + 1 * h.val = h.val; omega
  | ⟨2, _⟩ => show win0_0.index t (2 : Fin 3) * 4096 + 1 * j.val = j.val; omega

/-- Window 1's block at point t is row t of its array (the first pixel coordinates): entry (0, 0, n) of the block is entry (t, 0, n) of the array. -/
theorem iblk1_apply (c : Dev nD) (t : Fin cfg0.N) (n : Fin 512) :
    iblk m c 1 t (ix3 (0 : Fin 1) (0 : Fin 1) n) = V m c main_v13 (ix3 (sample t) (0 : Fin 1) n) := by
  obtain ⟨e0, e1, e2⟩ := index1 t
  unfold iblk
  show V m c main_v13 (((cfg0.win 1).blk t).view.emb (ix3 (0 : Fin 1) (0 : Fin 1) n)) = V m c main_v13 (ix3 (sample t) (0 : Fin 1) n)
  refine congrArg (V m c main_v13) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * n.val = n.val; omega

/-- Window 2's block at point t is row t of its array (the second pixel coordinates): entry (0, 0, n) of the block is entry (t, 0, n) of the array. -/
theorem iblk2_apply (c : Dev nD) (t : Fin cfg0.N) (n : Fin 512) :
    iblk m c 2 t (ix3 (0 : Fin 1) (0 : Fin 1) n) = V m c main_v14 (ix3 (sample t) (0 : Fin 1) n) := by
  obtain ⟨e0, e1, e2⟩ := index2 t
  unfold iblk
  show V m c main_v14 (((cfg0.win 2).blk t).view.emb (ix3 (0 : Fin 1) (0 : Fin 1) n)) = V m c main_v14 (ix3 (sample t) (0 : Fin 1) n)
  refine congrArg (V m c main_v14) (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 512 + 1 * n.val = n.val; omega

/-- Window 3's block at point t is row t of its array (the visibility as 0 or 1): entry (0, 0, n) of the block is entry (t, 0, n) of the array. -/
theorem iblk3_apply (c : Dev nD) (t : Fin cfg0.N) (n : Fin 512) :
    iblk m c 3 t (ix3 (0 : Fin 1) (0 : Fin 1) n) = V m c main_v18 (ix3 (sample t) (0 : Fin 1) n) := by
  obtain ⟨e0, e1, e2⟩ := index3 t
  unfold iblk
  show V m c main_v18 (((cfg0.win 3).blk t).view.emb (ix3 (0 : Fin 1) (0 : Fin 1) n)) = V m c main_v18 (ix3 (sample t) (0 : Fin 1) n)
  refine congrArg (V m c main_v18) (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * n.val = n.val; omega

/-- Window 4's block at point t is row t of its array (the tags): entry (0, 0, n) of the block is entry (t, 0, n) of the array. -/
theorem iblk4_apply (c : Dev nD) (t : Fin cfg0.N) (n : Fin 512) :
    iblk m c 4 t (ix3 (0 : Fin 1) (0 : Fin 1) n) = V m c main_v19 (ix3 (sample t) (0 : Fin 1) n) := by
  obtain ⟨e0, e1, e2⟩ := index4 t
  unfold iblk
  show V m c main_v19 (((cfg0.win 4).blk t).view.emb (ix3 (0 : Fin 1) (0 : Fin 1) n)) = V m c main_v19 (ix3 (sample t) (0 : Fin 1) n)
  refine congrArg (V m c main_v19) (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 512 + 1 * n.val = n.val; omega

end Cert.KernelIdeal.Kout

end
-- ==== Proof.KinLayout.lean ====
/-
  The layout operations the host applies to the four arguments before the kernel's region, read at an index, and the
  clip to [0, 255] on a word that already lies there.

  * The prediction array [32, 16, 256, 256] is transposed to [32, 256, 16, 256] (channel and row exchanged) and then
    reshaped to [32, 256, 4096]: row h of sample b holds, at column d · 256 + w, the entry (b, d, h, w).  Both positions
    have the same row-major number ((b · 256 + h) · 16 + d) · 256 + w.
  * A [32, 512] array reshaped to [32, 1, 512] reads (b, 0, n) at (b, n); a [32, 512, 1] array reshaped to [32, 512]
    reads (b, n) at (b, n, 0); the slice of column j of a [32, 512, 2] array reads (b, n, 0) at (b, n, j).
  * For a 32-bit word p with unsigned value below 256, max(0, p) = p and min(255, p) = p as signed integers.
-/
import Idealize.ShloMosaic.Lib.ValueIdx
import Idealize.ShloMosaic.Lib.Pipeline.Value
import Idealize.ShloMosaic.Lib.Affine

noncomputable section

namespace TagLoss.Kin

open Idealize.ShloMosaic Idealize.ShloMosaic.ValueIdx

variable {α : Type}

/-- Column d · 256 + w of a row of 16 · 256 entries. -/
abbrev col (d : Fin 16) (w : Fin 256) : Fin 4096 := ⟨d.val * 256 + w.val, by have := d.isLt; have := w.isLt; omega⟩

/-- Transpose [0, 2, 1, 3] then reshape to [32, 256, 4096]: entry (b, h, d · 256 + w) is the operand's (b, d, h, w). -/
theorem transpose_reshape_apply (x : (⟨4, ![32, 16, 256, 256]⟩ : Shape).Idx → α)
    (ht : (⟨4, ![32, 16, 256, 256]⟩ : Shape).Transposes [0, 2, 1, 3] ⟨4, ![32, 256, 16, 256]⟩)
    (hc : (⟨4, ![32, 256, 16, 256]⟩ : Shape).ShapeCasts ⟨3, ![32, 256, 4096]⟩)
    (b : Fin 32) (h : Fin 256) (d : Fin 16) (w : Fin 256) (hcol : d.val * 256 + w.val < 4096) :
    shapeCast ⟨3, ![32, 256, 4096]⟩ (transpose ⟨4, ![32, 256, 16, 256]⟩ [0, 2, 1, 3] x ht) hc
        (ix3 b h (⟨d.val * 256 + w.val, hcol⟩ : Fin 4096)) = x (ix4 b d h w) := by
  refine (shapeCast_apply _ hc _ (ix4 b h d w) ?_).trans ?_
  · rw [Shape.rowMajor_val_four, Shape.rowMajor_val_three]
    show ((b.val * 256 + h.val) * 16 + d.val) * 256 + w.val = (b.val * 256 + h.val) * 4096 + (d.val * 256 + w.val)
    omega
  · exact transpose_apply _ x ht _ (ix4 b d h w)
      (fun a => match a with | ⟨0, _⟩ => rfl | ⟨1, _⟩ => rfl | ⟨2, _⟩ => rfl | ⟨3, _⟩ => rfl)

/-- The same at any index of the reshaped array: the column splits as d · 256 + w with d its quotient, w its remainder. -/
theorem transpose_reshape_apply' (x : (⟨4, ![32, 16, 256, 256]⟩ : Shape).Idx → α)
    (ht : (⟨4, ![32, 16, 256, 256]⟩ : Shape).Transposes [0, 2, 1, 3] ⟨4, ![32, 256, 16, 256]⟩)
    (hc : (⟨4, ![32, 256, 16, 256]⟩ : Shape).ShapeCasts ⟨3, ![32, 256, 4096]⟩)
    (b : Fin 32) (h : Fin 256) (q : Fin 4096) :
    shapeCast ⟨3, ![32, 256, 4096]⟩ (transpose ⟨4, ![32, 256, 16, 256]⟩ [0, 2, 1, 3] x ht) hc (ix3 b h q)
      = x (ix4 b (⟨q.val / 256, by have := q.isLt; omega⟩ : Fin 16) h (⟨q.val % 256, Nat.mod_lt _ (by decide)⟩ : Fin 256)) := by
  have hlt : q.val / 256 * 256 + q.val % 256 < 4096 := by have := q.isLt; omega
  have hq : q = (⟨q.val / 256 * 256 + q.val % 256, hlt⟩ : Fin 4096) := Fin.ext (by
    show q.val = q.val / 256 * 256 + q.val % 256
    omega)
  refine (congrArg (fun j => shapeCast ⟨3, ![32, 256, 4096]⟩ (transpose ⟨4, ![32, 256, 16, 256]⟩ [0, 2, 1, 3] x ht) hc
    (ix3 b h j)) hq).trans ?_
  exact transpose_reshape_apply x ht hc b h ⟨q.val / 256, by have := q.isLt; omega⟩ ⟨q.val % 256, Nat.mod_lt _ (by decide)⟩ hlt

/-- [32, 512] reshaped to [32, 1, 512]. -/
theorem reshape_addRow_apply (v : (⟨2, ![32, 512]⟩ : Shape).Idx → α)
    (h : (⟨2, ![32, 512]⟩ : Shape).ShapeCasts ⟨3, ![32, 1, 512]⟩) (b : Fin 32) (n : Fin 512) :
    shapeCast ⟨3, ![32, 1, 512]⟩ v h (ix3 b 0 n) = v (ix2 b n) :=
  shapeCast_apply v h _ _ (by
    rw [Shape.rowMajor_val_two, Shape.rowMajor_val_three]
    show b.val * 512 + n.val = (b.val * 1 + 0) * 512 + n.val
    omega)

/-- [32, 512, 1] reshaped to [32, 512]. -/
theorem reshape_dropCol_apply (v : (⟨3, ![32, 512, 1]⟩ : Shape).Idx → α)
    (h : (⟨3, ![32, 512, 1]⟩ : Shape).ShapeCasts ⟨2, ![32, 512]⟩) (b : Fin 32) (n : Fin 512) :
    shapeCast ⟨2, ![32, 512]⟩ v h (ix2 b n) = v (ix3 b n 0) :=
  shapeCast_apply v h _ _ (by
    rw [Shape.rowMajor_val_two, Shape.rowMajor_val_three]
    show (b.val * 512 + n.val) * 1 + 0 = b.val * 512 + n.val
    omega)

/-- Column 0 of a [32, 512, 2] array. -/
theorem slice_col0_apply (v : (⟨3, ![32, 512, 2]⟩ : Shape).Idx → α)
    (h : (⟨3, ![32, 512, 2]⟩ : Shape).Slices ![0, 0, 0] ⟨3, ![32, 512, 1]⟩) (b : Fin 32) (n : Fin 512) :
    extractStridedSlice ⟨3, ![32, 512, 1]⟩ ![0, 0, 0] v h (ix3 b n 0) = v (ix3 b n 0) :=
  extractStridedSlice_apply _ v h _ _ (fun a => match a with
    | ⟨0, _⟩ => by show b.val = 0 + b.val; omega
    | ⟨1, _⟩ => by show n.val = 0 + n.val; omega
    | ⟨2, _⟩ => rfl)

/-- Column 1 of a [32, 512, 2] array. -/
theorem slice_col1_apply (v : (⟨3, ![32, 512, 2]⟩ : Shape).Idx → α)
    (h : (⟨3, ![32, 512, 2]⟩ : Shape).Slices ![0, 0, 1] ⟨3, ![32, 512, 1]⟩) (b : Fin 32) (n : Fin 512) :
    extractStridedSlice ⟨3, ![32, 512, 1]⟩ ![0, 0, 1] v h (ix3 b n 0) = v (ix3 b n 1) :=
  extractStridedSlice_apply _ v h _ _ (fun a => match a with
    | ⟨0, _⟩ => by show b.val = 0 + b.val; omega
    | ⟨1, _⟩ => by show n.val = 0 + n.val; omega
    | ⟨2, _⟩ => rfl)

/-- The clip to [0, 255] leaves a word of unsigned value below 256 as it is. -/
theorem clip_id (p : BitVec 32) (hp : p.toNat < 256) : IntOp.minsi 255#32 (IntOp.maxsi 0#32 p) = p := by
  have hpi : p.toInt = (p.toNat : Int) := BitVec.toInt_eq_toNat_of_lt (by omega)
  have e0 : (0#32 : BitVec 32).toInt = 0 := by decide
  have e255 : (255#32 : BitVec 32).toInt = 255 := by decide
  have h1 : IntOp.maxsi 0#32 p = p := by
    unfold IntOp.maxsi
    rw [if_neg]
    rw [BitVec.slt_iff_toInt_lt, hpi, e0]; omega
  rw [h1]
  unfold IntOp.minsi
  rw [if_neg]
  rw [BitVec.slt_iff_toInt_lt, hpi, e255]; omega

end TagLoss.Kin

end
-- ==== Proof.KinArrays.lean ====
/-
  What the kernel's region finds in its five input arrays, read at an index, as functions of the four arguments.

  Before the region the host computes, from the keypoint array k, the pixel indices floor(256 · k) as 32-bit integers,
  takes their two columns (column 0 indexes the rows of the plane, column 1 its columns), clips each to [0, 255] and
  lays it out as one row per sample; it transposes the prediction array so that a sample's plane row h holds all 16
  channels side by side (column d · 256 + w); it turns the visibility into the 0/1 mask (vis > 0); and it lays out the
  tags as one row per sample.  When the pixel indices already lie in [0, 256) the clip changes nothing.
-/
import proofs.«153252_j80238579023903_2_alg».proof.Proof.Gen.KernelIdeal.Frame
import Idealize.ShloMosaic.Lib.StableHlo.Run
import Idealize.ShloMosaic.Lib.ValueIdx
import Idealize.ShloMosaic.Lib.Pipeline.Value
import proofs.«153252_j80238579023903_2_alg».proof.Proof.Spec
import proofs.«153252_j80238579023903_2_alg».proof.Proof.KinLayout

set_option maxRecDepth 16384

noncomputable section

namespace TagLoss.Kin

open Idealize.ShloMosaic Idealize.ShloMosaic.ValueIdx Idealize.SL.Sem
open Cert.KernelIdeal Cert.KernelIdeal.Gen
open Idealize.ShloMosaic.StableHlo Idealize.ShloMosaic.TcCoe

variable (m : (ℓ : Loc nD τ sig) → Buf (Elt Ideal) ℓ)

/-- The four arguments as core c holds them at launch. -/
abbrev arg0 (c : Dev nD) : S32x16x256x256.Idx → EReal := m ((c : Thread nD τ).loc main_arg0)
abbrev arg1 (c : Dev nD) : S32x512x2.Idx → EReal := m ((c : Thread nD τ).loc main_arg1)
abbrev arg2 (c : Dev nD) : S32x512.Idx → BitVec 32 := m ((c : Thread nD τ).loc main_arg2)
abbrev arg3 (c : Dev nD) : S32x512.Idx → BitVec 32 := m ((c : Thread nD τ).loc main_arg3)

/-- The pixel indices: floor(256 · k) as 32-bit integers. -/
def idxArr (k : S32x512x2.Idx → EReal) : S32x512x2.Idx → BitVec 32 :=
  fptosi 32 (Host.floor (F := Ideal) (φ := .f32) (mulf (F := Ideal) (φ := .f32) k
    (broadcastInDim S32x512x2 ![0, 1, 2] Gen.bcast_S1x1x2_S32x512x2_0_1_2
      (broadcastInDim S1x1x2 ![2] Gen.bcast_S2_S1x1x2_2 (constant (F := Ideal) S2 .f32 0x43800000#32)))))

/-- The clip to [0, 255], entry by entry. -/
def clipArr (v : S32x512.Idx → BitVec 32) : S32x512.Idx → BitVec 32 :=
  minsi (broadcastInDim S32x512 ![] Gen.bcast_S_S32x512 (constantI S_ 32 255#32))
    (maxsi (broadcastInDim S32x512 ![] Gen.bcast_S_S32x512 (constantI S_ 32 0#32)) v)

theorem idxArr_apply (k : S32x512x2.Idx → EReal) (i : S32x512x2.Idx) : idxArr k i = pix (k i) := rfl

theorem clipArr_apply (v : S32x512.Idx → BitVec 32) (i : S32x512.Idx) :
    clipArr v i = IntOp.minsi 255#32 (IntOp.maxsi 0#32 (v i)) := rfl

/-! ## The five arrays as terms over the arguments -/

theorem v12_eq (c : Dev nD) :
    (V m c main_v12 : S32x256x4096.Idx → EReal)
      = shapeCast S32x256x4096 (transpose S32x256x16x256 [0, 2, 1, 3] (arg0 m c)
          Gen.transposes_S32x16x256x256_S32x256x16x256_0_2_1_3) Gen.shapeCasts_S32x256x16x256_S32x256x4096 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v13_eq (c : Dev nD) :
    (V m c main_v13 : S32x1x512.Idx → BitVec 32)
      = shapeCast S32x1x512 (clipArr (shapeCast S32x512 (extractStridedSlice S32x512x1 ![0, 0, 0] (idxArr (arg1 m c))
          Gen.slices_S32x512x2_S32x512x1_0_0_0) Gen.shapeCasts_S32x512x1_S32x512)) Gen.shapeCasts_S32x512_S32x1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v14_eq (c : Dev nD) :
    (V m c main_v14 : S32x1x512.Idx → BitVec 32)
      = shapeCast S32x1x512 (clipArr (shapeCast S32x512 (extractStridedSlice S32x512x1 ![0, 0, 1] (idxArr (arg1 m c))
          Gen.slices_S32x512x2_S32x512x1_0_0_1) Gen.shapeCasts_S32x512x1_S32x512)) Gen.shapeCasts_S32x512_S32x1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v18_eq (c : Dev nD) :
    (V m c main_v18 : S32x1x512.Idx → EReal)
      = shapeCast S32x1x512 (uitofp (F := Ideal) .f32 (cmpi .sgt (arg2 m c)
          (broadcastInDim S32x512 ![] Gen.bcast_S_S32x512 (constantI S_ 32 0#32)))) Gen.shapeCasts_S32x512_S32x1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v19_eq (c : Dev nD) :
    (V m c main_v19 : S32x1x512.Idx → BitVec 32) = shapeCast S32x1x512 (arg3 m c) Gen.shapeCasts_S32x512_S32x1x512 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

end TagLoss.Kin

end
-- ==== Proof.KinRead.lean ====
/-
  The five input arrays of the kernel's region read at an index.  With the pixel indices in [0, 256) the clip is the
  identity, so for sample b and keypoint n the two index rows hold the row pixel pix k(b, n, 0) and the column pixel
  pix k(b, n, 1); row h of the transposed prediction array holds pred(b, d, h, w) at column d · 256 + w; the mask row
  holds [vis(b, n) > 0] as 0 or 1; the tag row holds tag(b, n).
-/
import proofs.«153252_j80238579023903_2_alg».proof.Proof.KinArrays

set_option maxRecDepth 16384

noncomputable section

namespace TagLoss.Kin

open Idealize.ShloMosaic Idealize.ShloMosaic.ValueIdx Idealize.SL.Sem
open Cert.KernelIdeal Cert.KernelIdeal.Gen
open Idealize.ShloMosaic.StableHlo Idealize.ShloMosaic.TcCoe

variable (m : (ℓ : Loc nD τ sig) → Buf (Elt Ideal) ℓ)

/-- The transposed prediction array at row h, column d · 256 + w. -/
theorem v12_apply (c : Dev nD) (b : Fin 32) (h : Fin 256) (d : Fin 16) (w : Fin 256) (hcol : d.val * 256 + w.val < 4096) :
    (V m c main_v12 : S32x256x4096.Idx → EReal) (ix3 b h (⟨d.val * 256 + w.val, hcol⟩ : Fin 4096))
      = arg0 m c (ix4 b d h w) :=
  (congrFun (v12_eq m c) _).trans (transpose_reshape_apply _ _ _ b h d w hcol)

/-- The same at any column q: channel q / 256, plane column q % 256. -/
theorem v12_apply' (c : Dev nD) (b : Fin 32) (h : Fin 256) (q : Fin 4096) :
    (V m c main_v12 : S32x256x4096.Idx → EReal) (ix3 b h q)
      = arg0 m c (ix4 b (⟨q.val / 256, by have := q.isLt; omega⟩ : Fin 16) h
          (⟨q.val % 256, Nat.mod_lt _ (by decide)⟩ : Fin 256)) :=
  (congrFun (v12_eq m c) _).trans (transpose_reshape_apply' _ _ _ b h q)

/-- The row-pixel array: column 0 of the pixel indices. -/
theorem v13_apply (c : Dev nD) (hR : InRange (arg1 m c)) (b : Fin 32) (n : Fin 512) :
    (V m c main_v13 : S32x1x512.Idx → BitVec 32) (ix3 b 0 n) = pix (arg1 m c (ix3 b n 0)) := by
  have e : shapeCast S32x512 (extractStridedSlice S32x512x1 ![0, 0, 0] (idxArr (arg1 m c))
      Gen.slices_S32x512x2_S32x512x1_0_0_0) Gen.shapeCasts_S32x512x1_S32x512 (ix2 b n) = pix (arg1 m c (ix3 b n 0)) :=
    (reshape_dropCol_apply _ _ b n).trans ((slice_col0_apply _ _ b n).trans (idxArr_apply _ _))
  refine (congrFun (v13_eq m c) _).trans ((reshape_addRow_apply _ _ b n).trans ((clipArr_apply _ _).trans ?_))
  rw [e]
  exact clip_id _ (hR _)

/-- The column-pixel array: column 1 of the pixel indices. -/
theorem v14_apply (c : Dev nD) (hR : InRange (arg1 m c)) (b : Fin 32) (n : Fin 512) :
    (V m c main_v14 : S32x1x512.Idx → BitVec 32) (ix3 b 0 n) = pix (arg1 m c (ix3 b n 1)) := by
  have e : shapeCast S32x512 (extractStridedSlice S32x512x1 ![0, 0, 1] (idxArr (arg1 m c))
      Gen.slices_S32x512x2_S32x512x1_0_0_1) Gen.shapeCasts_S32x512x1_S32x512 (ix2 b n) = pix (arg1 m c (ix3 b n 1)) :=
    (reshape_dropCol_apply _ _ b n).trans ((slice_col1_apply _ _ b n).trans (idxArr_apply _ _))
  refine (congrFun (v14_eq m c) _).trans ((reshape_addRow_apply _ _ b n).trans ((clipArr_apply _ _).trans ?_))
  rw [e]
  exact clip_id _ (hR _)

/-- The mask array: visibility above zero, as 0 or 1. -/
theorem v18_apply (c : Dev nD) (b : Fin 32) (n : Fin 512) :
    (V m c main_v18 : S32x1x512.Idx → EReal) (ix3 b 0 n) = maskOf (arg2 m c (ix2 b n)) :=
  (congrFun (v18_eq m c) _).trans ((reshape_addRow_apply _ _ b n).trans rfl)

/-- The tag array. -/
theorem v19_apply (c : Dev nD) (b : Fin 32) (n : Fin 512) :
    (V m c main_v19 : S32x1x512.Idx → BitVec 32) (ix3 b 0 n) = arg3 m c (ix2 b n) :=
  (congrFun (v19_eq m c) _).trans (reshape_addRow_apply _ _ b n)

end TagLoss.Kin

end
-- ==== Proof.KerPoint.lean ====
import proofs.«153252_j80238579023903_2_alg».proof.Proof.KerBody
import proofs.«153252_j80238579023903_2_alg».proof.Proof.KinBlocks
import proofs.«153252_j80238579023903_2_alg».proof.Proof.KinRead

noncomputable section

open scoped BigOperators

/-! # What grid point t writes back

Point t works on sample t: its five input blocks are slab t of the re-laid prediction planes and row t of the two
pixel-index arrays, of the mask and of the tags. With the pixel indices inside the plane the output block's one entry
is the specification's loss of sample t. -/

namespace Cert.KernelIdeal.Point

open Cert.KernelIdeal Cert.KernelIdeal.Gen Idealize.ShloMosaic Idealize.ShloMosaic.ValueIdx Idealize.ShloMosaic.TcCoe Idealize.SL.Sem
open Cert.KernelIdeal.Kout (sample)
open TagLoss.Kin (arg0 arg1 arg2 arg3)

variable (m : (ℓ : Loc nD τ sig) → Buf (Elt Ideal) ℓ)

/-- The loss of sample b on core c, of the argument arrays as launched. -/
def P (c : Dev nD) (b : Fin 32) : EReal :=
  TagLoss.perSample (TagLoss.emb (arg0 m c) (arg1 m c) b) (fun n => TagLoss.maskOf (arg2 m c (ix2 b n)))
    (fun n k => TagLoss.sameTag (arg3 m c (ix2 b n)) (arg3 m c (ix2 b k)))

theorem point_value (hR : ∀ c : Dev nD, TagLoss.InRange (arg1 m c)) (c : Dev nD) (t : Fin cfg0.N) :
    out0_5 (iblk m c 0 t) (iblk m c 1 t) (iblk m c 2 t) (iblk m c 3 t) (iblk m c 4 t)
      = (fun _ => P m c (sample t) : S1x1x1.Idx → EReal) := by
  have h1 : ∀ n : Fin 512, iblk m c 1 t (ix3 (0 : Fin 1) (0 : Fin 1) n) = TagLoss.pix (arg1 m c (ix3 (sample t) n 0)) := fun n =>
    (Kout.iblk1_apply m c t n).trans (TagLoss.Kin.v13_apply m c (hR c) (sample t) n)
  have h2 : ∀ n : Fin 512, iblk m c 2 t (ix3 (0 : Fin 1) (0 : Fin 1) n) = TagLoss.pix (arg1 m c (ix3 (sample t) n 1)) := fun n =>
    (Kout.iblk2_apply m c t n).trans (TagLoss.Kin.v14_apply m c (hR c) (sample t) n)
  have h3 : ∀ n : Fin 512, iblk m c 3 t (ix3 (0 : Fin 1) (0 : Fin 1) n) = TagLoss.maskOf (arg2 m c (ix2 (sample t) n)) := fun n =>
    (Kout.iblk3_apply m c t n).trans (TagLoss.Kin.v18_apply m c (sample t) n)
  have h4 : ∀ n : Fin 512, iblk m c 4 t (ix3 (0 : Fin 1) (0 : Fin 1) n) = arg3 m c (ix2 (sample t) n) := fun n =>
    (Kout.iblk4_apply m c t n).trans (TagLoss.Kin.v19_apply m c (sample t) n)
  refine (Body.out_value (iblk m c 0 t) (iblk m c 1 t) (iblk m c 2 t) (iblk m c 3 t) (iblk m c 4 t)
    (fun n => by rw [h1 n]; exact hR c _) (fun n => by rw [h2 n]; exact hR c _)).trans ?_
  funext _
  unfold P
  have he : Body.blockEmb (iblk m c 0 t) (iblk m c 1 t) (iblk m c 2 t) = TagLoss.emb (arg0 m c) (arg1 m c) (sample t) := by
    funext d n
    unfold Body.blockEmb TagLoss.emb TagLoss.pos
    refine (Kout.iblk0_apply m c t _ _).trans ?_
    refine (TagLoss.Kin.v12_apply m c (sample t) _ d _ _).trans ?_
    have e1 : (⟨(iblk m c 1 t (ix3 (0 : Fin 1) (0 : Fin 1) n)).toNat % 256, Nat.mod_lt _ (by decide)⟩ : Fin 256)
        = ⟨(TagLoss.pix (arg1 m c (ix3 (sample t) n 0))).toNat % 256, Nat.mod_lt _ (by decide)⟩ := Fin.ext (by rw [h1 n])
    have e2 : (⟨(iblk m c 2 t (ix3 (0 : Fin 1) (0 : Fin 1) n)).toNat % 256, Nat.mod_lt _ (by decide)⟩ : Fin 256)
        = ⟨(TagLoss.pix (arg1 m c (ix3 (sample t) n 1))).toNat % 256, Nat.mod_lt _ (by decide)⟩ := Fin.ext (by rw [h2 n])
    exact congrArg (arg0 m c) (congrArg₂ (ix4 (sample t) d) e1 e2)
  rw [he]
  simp only [h3, h4]

end Cert.KernelIdeal.Point
end
-- ==== Proof.KoutSum.lean ====
/-
  The host operations after the kernel's region, as arithmetic on the extended reals.

  The kernel's output array X has shape [32, 1, 1].  The program reshapes it to [32], adds its 32 entries up from the
  zero word, and divides by the word of 32.  Entry b of the reshaped array is X (b, 0, 0) (same row-major position), the
  sum from the zero word is the plain sum over the 32 samples, so the result is (sum_b X (b, 0, 0)) / 32.
-/
import proofs.«153252_j80238579023903_2_alg».proof.Proof.Gen.KernelIdeal
import proofs.«153252_j80238579023903_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Kout

open Cert.KernelIdeal Idealize.ShloMosaic Idealize.ShloMosaic.ValueIdx

/-- The reshape of [32, 1, 1] to [32] read at b is the entry (b, 0, 0): the two have the same row-major position. -/
theorem rows_apply (X : FVec Ideal S32x1x1 .f32) (h : S32x1x1.ShapeCasts S32) (b : Fin 32) :
    shapeCast S32 X h (ix1 b) = X (ix3 b (0 : Fin 1) (0 : Fin 1)) := by
  refine shapeCast_apply X h (ix1 b) (ix3 b (0 : Fin 1) (0 : Fin 1)) ?_
  rw [Shape.rowMajor_val_three, Shape.rowMajor_val_one]
  show (b.val * 1 + 0) * 1 + 0 = b.val
  omega

/-- The indices of shape [32] are the 32 samples. -/
def idx32 : S32.Idx ≃ Fin 32 where
  toFun i := i 0
  invFun b := ix1 b
  left_inv i := (eq_ix1 i).symm
  right_inv b := rfl

/-- A sum over the indices of shape [32] is the sum over the 32 samples. -/
theorem sum_idx32 (x : S32.Idx → EReal) : ∑ i : S32.Idx, x i = ∑ b : Fin 32, x (ix1 b) :=
  Fintype.sum_equiv idx32 x (fun b => x (ix1 b)) (fun i => congrArg x (eq_ix1 i))

/-- The three host operations on the output array: reshape, sum from the zero word, division by the word of 32. -/
theorem mean_rows (X : FVec Ideal S32x1x1 .f32) (hsc : S32x1x1.ShapeCasts S32) (hr : S32.ReducesTo [0] S_) (hu : 0 < S_.numel) :
    Host.divf (Host.reduceAdd (shapeCast S32 X hsc : FVec Ideal S32 .f32) (constant (F := Ideal) S_ .f32 0x00000000#32) hr hu)
        (constant (F := Ideal) S_ .f32 0x42000000#32)
      = (fun _ => Ideal.div (∑ b : Fin 32, X (ix3 b (0 : Fin 1) (0 : Fin 1))) TagLoss.w32 : FVec Ideal S_ .f32) := by
  funext j
  rw [hostDivf_apply, hostReduceAdd_apply, Ideal.hostReduceAdd_total hr (fun b => b.elim0), constant_apply, constant_apply,
    Ideal.ofBits_zero_f32, zero_add, sum_idx32]
  exact congrArg (fun s => Ideal.div s TagLoss.w32) (Finset.sum_congr rfl fun b _ => rows_apply X hsc b)

end Cert.KernelIdeal.Kout

end
-- ==== Proof.KoutRun.lean ====
/-
  The kernel's run, read: the result is the mean of the per-sample values.

  The run of the generated frame leaves the output array at what the 32 grid points wrote back, which is the array of
  the per-sample values (sample b's at (b, 0, 0)); the host operations after the region turn it into
  (sum_b P b) / 32; the four argument arrays end as they were launched.  All of it is generic in the per-sample value
  P: the one hypothesis is that the body, on the blocks of grid point t, leaves the constant block of value P t.
-/
import proofs.«153252_j80238579023903_2_alg».proof.Proof.Gen.KernelIdeal.Frame
import proofs.«153252_j80238579023903_2_alg».proof.Proof.Spec
import proofs.«153252_j80238579023903_2_alg».proof.Proof.KoutBlocks
import proofs.«153252_j80238579023903_2_alg».proof.Proof.KoutSum
import Idealize.ShloMosaic.Lib.Pipeline.Value
import Idealize.ShloMosaic.Lib.ValueIdx
import Idealize.ShloMosaic.Lib.IdealHost

noncomputable section

open scoped BigOperators

namespace Cert.KernelIdeal.Kout

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The result buffer after the host operations that follow the region, when the output array ends holding the
    per-sample values: their sum divided by the word of 32. -/
theorem tail_result (c : Dev nD) (P : Fin 32 → EReal) (hfin : (dats m 0 c).arrAt 5 cfg0.N = arrOf P) :
    Pipeline.afterTail₀ cfgs (dats m) 0 (V0 m) [hostOps1] c main_v23
      = (fun _ => Ideal.div (∑ b : Fin 32, P b) TagLoss.w32 : S_.Idx → EReal) := by
  unfold Pipeline.afterTail₀
  show StableHlo.after hostOps1 _ (Proc.devRef .tc main_v23) = _
  after_results
  have hX : Pipeline.withArrays (cfgs 0).spec c (V0 m c) (fun w => (dats m 0 c).arrAt w (cfgs 0).N) (Proc.devRef .tc main_v20) = arrOf P :=
    (Pipeline.withArrays_arr spec0 launch0.win.arr_inj c _ _ 5).trans hfin
  show Host.divf (Host.reduceAdd (shapeCast S32 (Pipeline.withArrays (cfgs 0).spec c (V0 m c) (fun w => (dats m 0 c).arrAt w (cfgs 0).N) (Proc.devRef .tc main_v20) : FVec Ideal S32x1x1 .f32) shapeCasts_S32x1x1_S32 : FVec Ideal S32 .f32) (constant (F := Ideal) S_ .f32 0x00000000#32) reducesTo_S32_S_d0 h_S_)
        (constant (F := Ideal) S_ .f32 0x42000000#32) = _
  rw [hX]
  exact mean_rows (arrOf P) shapeCasts_S32x1x1_S32 reducesTo_S32_S_d0 h_S_

/-- THE KERNEL'S RUN: from any memory with zero counters the program terminates, its result is the mean over the 32
    samples of the per-sample values, and its four argument arrays end as launched. -/
theorem kernel_result (ρ : Dev nD → PrngReg) (P : Dev nD → Fin 32 → EReal)
    (hP : ∀ (c : Dev nD) (t : Fin cfg0.N), out0_5 (iblk m c 0 t) (iblk m c 1 t) (iblk m c 2 t) (iblk m c 3 t) (iblk m c 4 t)
      = (fun _ => P c (sample t) : S1x1x1.Idx → EReal)) :
    θ_run defs (onTc (τ := τ) (main (F := Ideal))) ⟨m, fun _ => 0, ρ⟩ (fun r => ∀ c : Dev nD,
      r.2.mem ((c.tc : Thread nD τ).loc main_v23) = (fun _ => Ideal.div (∑ b : Fin 32, P c b) TagLoss.w32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans
        (tail_result m c (P c) (final m c (P c) (hP c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- A block of shape [1, 1, 1] is the constant block of its one entry. -/
theorem block_const (f : S1x1x1.Idx → EReal) : f = fun _ => f (ix3 (0 : Fin 1) (0 : Fin 1) (0 : Fin 1)) := by
  funext j
  refine congrArg f (funext fun a => Fin.ext ?_)
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- The kernel's run with the body's block read at its one entry (0, 0, 0). -/
theorem kernel_result_at (ρ : Dev nD → PrngReg) (P : Dev nD → Fin 32 → EReal)
    (hP : ∀ (c : Dev nD) (t : Fin cfg0.N), out0_5 (iblk m c 0 t) (iblk m c 1 t) (iblk m c 2 t) (iblk m c 3 t) (iblk m c 4 t)
      (ix3 (0 : Fin 1) (0 : Fin 1) (0 : Fin 1)) = P c (sample t)) :
    θ_run defs (onTc (τ := τ) (main (F := Ideal))) ⟨m, fun _ => 0, ρ⟩ (fun r => ∀ c : Dev nD,
      r.2.mem ((c.tc : Thread nD τ).loc main_v23) = (fun _ => Ideal.div (∑ b : Fin 32, P c b) TagLoss.w32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kernel_result m ρ P fun c t => (block_const _).trans (funext fun _ => hP c t)

end Cert.KernelIdeal.Kout

end
-- ==== Proof.RefGatherAt.lean ====
/-
  The embedding gather read at an index.

  The operand is [32, 16, 256, 256], the start indices [32, 512, 2], the result [32, 16, 512]; the sample axis is a
  batching axis, the channel axis is the one offset axis (its slice is all 16 channels), and the two pixel axes are
  collapsed and take their start from the index vector.  So result entry (b, d, n) is the operand at
  (b, d, y, x) where y and x are the two components of the start index of keypoint n of sample b, each read as a
  signed integer and clamped into [0, 255].
-/
import proofs.«153252_j80238579023903_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- The gather's dimension numbers. -/
abbrev gd : GatherDims S32x16x256x256 S32x512x2 S32x16x512 :=
  gather_S32x16x256x256_S32x512x2_S32x16x512_1_23_0_0_23_2_11611

/-- A start-index component read signed and clamped to the last pixel. -/
def clampPix (v : BitVec 32) : Fin 256 := ⟨min v.toInt.toNat 255, by omega⟩

/-- The start-indices index at which entry (b, d, n) reads component c of its start index is (b, n, c). -/
theorem siIdx_at (b : Fin 32) (d : Fin 16) (n : Fin 512) (c : Fin gd.startIndexMap.length) :
    gd.siIdx (ix3 b d n) c = ix3 b n (⟨c.val, c.isLt⟩ : Fin 2) := by
  funext a; refine Fin.ext ?_
  match a with
  | ⟨0, _⟩ => rfl
  | ⟨1, _⟩ => rfl
  | ⟨2, _⟩ => rfl

theorem gather_at {α : Type} (x : S32x16x256x256.Idx → α) (idx : IVec S32x512x2 32) (b : Fin 32) (d : Fin 16) (n : Fin 512) :
    Host.gather gd x idx (ix3 b d n) = x (ix4 b d (clampPix (idx (ix3 b n 0))) (clampPix (idx (ix3 b n 1)))) := by
  unfold Host.gather
  congr 1
  funext a
  refine Fin.ext ?_
  show gd.start (ix3 b d n) idx a + gd.batchCoord (ix3 b d n) a + gd.offCoord (ix3 b d n) a = _
  match a with
  | ⟨0, h0⟩ =>
    have hm : (⟨0, h0⟩ : Fin 4) ∈ gd.operandBatchingDims := (by decide : (⟨0, by decide⟩ : Fin 4) ∈ gd.operandBatchingDims)
    rw [gd.start_batching _ _ _ hm, gd.offCoord_eq_zero _ _ (fun h => ((gd.mem_sKept _).mp h).2 hm), Nat.zero_add, Nat.add_zero]
    unfold GatherDims.batchCoord
    rw [dif_pos hm]
    rfl
  | ⟨1, h1⟩ =>
    have hs : (⟨1, h1⟩ : Fin 4) ∉ gd.startIndexMap := (by decide : (⟨1, by decide⟩ : Fin 4) ∉ gd.startIndexMap)
    have hb : (⟨1, h1⟩ : Fin 4) ∉ gd.operandBatchingDims := (by decide : (⟨1, by decide⟩ : Fin 4) ∉ gd.operandBatchingDims)
    have hk : (⟨1, h1⟩ : Fin 4) ∈ gd.sKept := (by decide : (⟨1, by decide⟩ : Fin 4) ∈ gd.sKept)
    rw [gd.batchCoord_eq_zero _ _ hb, Nat.add_zero]
    unfold GatherDims.start GatherDims.offCoord
    rw [dif_neg hs, dif_pos hk, Nat.zero_add]
    rfl
  | ⟨2, h2⟩ =>
    have hs : (⟨2, h2⟩ : Fin 4) ∈ gd.startIndexMap := (by decide : (⟨2, by decide⟩ : Fin 4) ∈ gd.startIndexMap)
    have hb : (⟨2, h2⟩ : Fin 4) ∉ gd.operandBatchingDims := (by decide : (⟨2, by decide⟩ : Fin 4) ∉ gd.operandBatchingDims)
    have hk : (⟨2, h2⟩ : Fin 4) ∉ gd.sKept := (by decide : (⟨2, by decide⟩ : Fin 4) ∉ gd.sKept)
    rw [gd.batchCoord_eq_zero _ _ hb, gd.offCoord_eq_zero _ _ hk, Nat.add_zero]
    unfold GatherDims.start
    rw [dif_pos hs, siIdx_at]
    rfl
  | ⟨3, h3⟩ =>
    have hs : (⟨3, h3⟩ : Fin 4) ∈ gd.startIndexMap := (by decide : (⟨3, by decide⟩ : Fin 4) ∈ gd.startIndexMap)
    have hb : (⟨3, h3⟩ : Fin 4) ∉ gd.operandBatchingDims := (by decide : (⟨3, by decide⟩ : Fin 4) ∉ gd.operandBatchingDims)
    have hk : (⟨3, h3⟩ : Fin 4) ∉ gd.sKept := (by decide : (⟨3, by decide⟩ : Fin 4) ∉ gd.sKept)
    rw [gd.batchCoord_eq_zero _ _ hb, gd.offCoord_eq_zero _ _ hk, Nat.add_zero]
    unfold GatherDims.start
    rw [dif_pos hs, siIdx_at]
    rfl

end Cert.ReferenceIdeal.RefValue

end
-- ==== Proof.RefGather.lean ====
/-
  The gathered embeddings.

  A keypoint coordinate's pixel is floor(256 * k) converted to a 32-bit integer.  The reference wraps a negative
  pixel by adding 256 before it gathers, and the gather clamps the start index into [0, 255].  When the pixel lies
  in [0, 256) it is not negative, so the wrap leaves it, and the clamp leaves it; the two pixel columns are joined
  into one array of start indices along a new last axis.  Hence the gathered array at (b, d, n) is the prediction
  at (b, d, y, x) with (y, x) the pixel of keypoint n of sample b: the embedding of the tag loss.
-/
import proofs.«153252_j80238579023903_2_alg».proof.Proof.ReadP
import proofs.«153252_j80238579023903_2_alg».proof.Proof.Spec
import proofs.«153252_j80238579023903_2_alg».proof.Proof.RefGatherAt

noncomputable section

namespace Cert.ReferenceIdeal.RefValue

open Cert.ReferenceIdeal Cert.ReferenceIdeal.Gen Cert.ReferenceIdeal.ReadP Idealize.ShloMosaic Idealize.ShloMosaic.ValueIdx

/-! ## Words -/

/-- A pixel below 256 is not negative as a signed integer, so adding 256 where it is negative leaves it. -/
theorem wrap_id (p : BitVec 32) (hp : p.toNat < 256) :
    Scalar.select (IntOp.cmpi .slt p 0#32) (IntOp.addi p 256#32) p = p := by
  have hi : p.toInt = (p.toNat : Int) := BitVec.toInt_eq_toNat_of_lt (by omega)
  have hc : IntOp.cmpi .slt p 0#32 = 0#1 := by
    show BitVec.ofBool (p.slt 0#32) = 0#1
    have : p.slt 0#32 = false := by
      rw [BitVec.slt, hi]; simp
    rw [this]; rfl
  rw [hc]; exact select_zero _ _

/-- Reading such a pixel as a signed integer and clamping it to 255 gives the pixel. -/
theorem clampPix_eq (p : BitVec 32) (hp : p.toNat < 256) :
    clampPix p = ⟨p.toNat % 256, Nat.mod_lt _ (by decide)⟩ := by
  have hi : p.toInt = (p.toNat : Int) := BitVec.toInt_eq_toNat_of_lt (by omega)
  refine Fin.ext ?_
  show min p.toInt.toNat 255 = p.toNat % 256
  rw [hi, Int.toNat_natCast]; omega

/-! ## The pixel columns -/

section
variable (x1 : (⟨S32x512x2, .f32⟩ : BufTy).Contents (Elt Ideal))

theorem v4_at (b : Fin 32) (n : Fin 512) (j : Fin 2) :
    val_main_v4 (F := Ideal) x1 (ix3 b n j) = TagLoss.pix (x1 (ix3 b n j)) := by
  rw [val_main_v4_apply, val_main_v3_apply, val_main_v2_apply, val_main_v1_apply, val_main_v0_apply, val_main_cst_apply]
  rfl

theorem v6_at (b : Fin 32) (n : Fin 512) :
    val_main_v6 (F := Ideal) x1 (ix2 b n) = TagLoss.pix (x1 (ix3 b n 0)) := by
  have e : idx_main_v5 (idx_main_v6 (ix2 b n)) = ix3 b n 0 := by
    have hb := b.isLt; have hn := n.isLt
    funext a; refine Fin.ext ?_
    match a with
    | ⟨0, _⟩ => show (b.val * 512 + n.val) / 512 = b.val; omega
    | ⟨1, _⟩ => show (b.val * 512 + n.val) / 1 % 512 = n.val; omega
    | ⟨2, _⟩ => rfl
  rw [val_main_v6_apply, val_main_v5_apply, e, v4_at]

theorem v8_at (b : Fin 32) (n : Fin 512) :
    val_main_v8 (F := Ideal) x1 (ix2 b n) = TagLoss.pix (x1 (ix3 b n 1)) := by
  have e : idx_main_v7 (idx_main_v8 (ix2 b n)) = ix3 b n 1 := by
    have hb := b.isLt; have hn := n.isLt
    funext a; refine Fin.ext ?_
    match a with
    | ⟨0, _⟩ => show (b.val * 512 + n.val) / 512 = b.val; omega
    | ⟨1, _⟩ => show (b.val * 512 + n.val) / 1 % 512 = n.val; omega
    | ⟨2, _⟩ => rfl
  rw [val_main_v8_apply, val_main_v7_apply, e, v4_at]

theorem v13_at (hr : TagLoss.InRange x1) (b : Fin 32) (n : Fin 512) :
    val_main_v13 (F := Ideal) x1 (ix2 b n) = TagLoss.pix (x1 (ix3 b n 0)) := by
  rw [val_main_v13_apply, val_main_v10_apply, val_main_v12_apply, val_main_v9_apply, val_main_v11_apply,
    val_main_c_apply, val_main_c_0_apply, v6_at]
  exact wrap_id _ (hr _)

theorem v18_at (hr : TagLoss.InRange x1) (b : Fin 32) (n : Fin 512) :
    val_main_v18 (F := Ideal) x1 (ix2 b n) = TagLoss.pix (x1 (ix3 b n 1)) := by
  rw [val_main_v18_apply, val_main_v15_apply, val_main_v17_apply, val_main_v14_apply, val_main_v16_apply,
    val_main_c_1_apply, val_main_c_2_apply, v8_at]
  exact wrap_id _ (hr _)

/-- The joined start indices at (b, n, 0): the first pixel column. -/
theorem v21_at0 (hr : TagLoss.InRange x1) (b : Fin 32) (n : Fin 512) :
    val_main_v21 (F := Ideal) x1 (ix3 b n 0) = TagLoss.pix (x1 (ix3 b n 0)) := by
  have e : idx_main_v19 (ix3 b n (0 : Fin 1)) = ix2 b n := by
    funext a; refine Fin.ext ?_
    match a with
    | ⟨0, _⟩ => rfl
    | ⟨1, _⟩ => rfl
  unfold val_main_v21
  refine (concatenate_pair_apply_left (t := S32x512x2) (s₁ := S32x512x1) (s₂ := S32x512x1) 2
    (val_main_v19 (F := Ideal) x1) (val_main_v20 (F := Ideal) x1) concatenates_S32x512x1_S32x512x1_S32x512x2_d2
    (ix3 b n (0 : Fin 2)) rfl (ix3 b n (0 : Fin 1))
    (fun a => match a with | ⟨0, _⟩ => rfl | ⟨1, _⟩ => rfl | ⟨2, _⟩ => rfl)).trans ?_
  rw [val_main_v19_apply, e, v13_at x1 hr]

/-- The joined start indices at (b, n, 1): the second pixel column. -/
theorem v21_at1 (hr : TagLoss.InRange x1) (b : Fin 32) (n : Fin 512) :
    val_main_v21 (F := Ideal) x1 (ix3 b n 1) = TagLoss.pix (x1 (ix3 b n 1)) := by
  have e : idx_main_v20 (ix3 b n (0 : Fin 1)) = ix2 b n := by
    funext a; refine Fin.ext ?_
    match a with
    | ⟨0, _⟩ => rfl
    | ⟨1, _⟩ => rfl
  unfold val_main_v21
  refine (concatenate_pair_apply_right (t := S32x512x2) (s₁ := S32x512x1) (s₂ := S32x512x1) 2
    (val_main_v19 (F := Ideal) x1) (val_main_v20 (F := Ideal) x1) concatenates_S32x512x1_S32x512x1_S32x512x2_d2
    (ix3 b n (1 : Fin 2)) rfl rfl (ix3 b n (0 : Fin 1))
    (fun a => match a with
      | ⟨0, _⟩ => fun _ => rfl
      | ⟨1, _⟩ => fun _ => rfl
      | ⟨2, _⟩ => fun h => absurd rfl h)
    rfl).trans ?_
  rw [val_main_v20_apply, e, v18_at x1 hr]

end

/-! ## The gather -/

theorem v22_at (x0 : (⟨S32x16x256x256, .f32⟩ : BufTy).Contents (Elt Ideal))
    (x1 : (⟨S32x512x2, .f32⟩ : BufTy).Contents (Elt Ideal)) (hr : TagLoss.InRange x1)
    (b : Fin 32) (d : Fin 16) (n : Fin 512) :
    val_main_v22 (F := Ideal) x0 x1 (ix3 b d n) = TagLoss.emb x0 x1 b d n := by
  unfold val_main_v22
  rw [gather_at, v21_at0 x1 hr, v21_at1 x1 hr, clampPix_eq _ (hr _), clampPix_eq _ (hr _)]
  rfl

end Cert.ReferenceIdeal.RefValue

end
-- ==== Proof.RefAlgebra.lean ====
/-
  Facts about the extended reals used to compare the reference program with the tag loss.

  The float words of 16, 1/16, 2, 1 and 10 denote those reals.  Dividing by the word of 16 is multiplying by the
  word of 1/16 on every extended real.  Real numbers are closed under sums, products and differences, so when
  every embedding entry is real the exponent sq n + sq m - 2 * dot n m is real; the exponential of a real is a
  positive real, so the similarity 2 / (1 + exp x) of a real exponent is positive.  A weight that is 10 where the
  similarity is positive (and 0 elsewhere) is therefore 10 everywhere, and the product
  (dis * 10) * (mask n * mask m) is dis * (mask n * mask m) * 10 because multiplication on the extended reals is
  commutative and associative.
-/
import proofs.«153252_j80238579023903_2_alg».proof.Proof.Spec

noncomputable section

open scoped BigOperators

namespace TagLoss

open Idealize.ShloMosaic

/-! ## The words -/

theorem w16_eq : w16 = ((16 : ℝ) : EReal) := by
  show Ideal.ofBits .f32 0x41800000#32 = _
  simp [Ideal.ofBits, Ideal.ieee, -EReal.coe_mul]; norm_num

theorem wInv16_eq : wInv16 = ((1 / 16 : ℝ) : EReal) := by
  show Ideal.ofBits .f32 0x3D800000#32 = _
  simp [Ideal.ofBits, Ideal.ieee, -EReal.coe_mul]; norm_num

theorem w2_eq : w2 = ((2 : ℝ) : EReal) := by
  show Ideal.ofBits .f32 0x40000000#32 = _
  simp [Ideal.ofBits, Ideal.ieee, -EReal.coe_mul]; norm_num

theorem w1_eq : w1 = ((1 : ℝ) : EReal) := by
  show Ideal.ofBits .f32 0x3F800000#32 = _
  simp [Ideal.ofBits, Ideal.ieee, -EReal.coe_mul]; norm_num

theorem w10_eq : w10 = ((10 : ℝ) : EReal) := by
  show Ideal.ofBits .f32 0x41200000#32 = _
  simp [Ideal.ofBits, Ideal.ieee, -EReal.coe_mul]; norm_num

/-- The zero word denotes 0. -/
theorem wZero_eq : Ideal.ofBits .f32 0x00000000#32 = (0 : EReal) := by
  simp [Ideal.ofBits, Ideal.ieee]

/-- Multiplying by the word of 1/16 is dividing by the word of 16, at the infinities too. -/
theorem mul_wInv16 (x : EReal) : x * wInv16 = Ideal.div x w16 := by
  rw [w16_eq, wInv16_eq, Ideal.div_coe (by norm_num : (16 : ℝ) ≠ 0)]

/-! ## Real numbers among the extended reals -/

/-- An extended real that is a real number. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem isReal_zero : IsReal 0 := ⟨0, EReal.coe_zero.symm⟩

theorem IsReal.sum {ι : Type} (s : Finset ι) (f : ι → EReal) (hf : ∀ i ∈ s, IsReal (f i)) : IsReal (∑ i ∈ s, f i) :=
  Finset.sum_induction f IsReal (fun _ _ => IsReal.add) isReal_zero hf

theorem isReal_w2 : IsReal w2 := ⟨2, w2_eq⟩
theorem isReal_wInv16 : IsReal wInv16 := ⟨1 / 16, wInv16_eq⟩

theorem IsReal.div_w16 {x : EReal} (hx : IsReal x) : IsReal (Ideal.div x w16) := by
  rw [← mul_wInv16]; exact hx.mul isReal_wInv16

/-! ## The exponent is real and the similarity positive -/

section sample
variable (e : Fin 16 → Fin 512 → EReal) (mk : Fin 512 → EReal) (ts : Fin 512 → Fin 512 → EReal)

theorem isReal_sq (he : ∀ d n, IsReal (e d n)) (n : Fin 512) : IsReal (sq e n) :=
  (IsReal.sum _ _ fun d _ => (he d n).mul (he d n)).div_w16

theorem isReal_dot (he : ∀ d n, IsReal (e d n)) (n m : Fin 512) : IsReal (dot e n m) :=
  (IsReal.sum _ _ fun d _ => (he d n).mul (he d m)).mul isReal_wInv16

theorem isReal_expo (he : ∀ d n, IsReal (e d n)) (n m : Fin 512) : IsReal (expo e n m) :=
  ((isReal_sq e he n).add (isReal_sq e he m)).sub (isReal_w2.mul (isReal_dot e he n m))

/-- The similarity of a real exponent is a positive real. -/
theorem sim_pos_of_isReal {x : EReal} (hx : IsReal x) : 0 < sim x := by
  obtain ⟨r, rfl⟩ := hx
  have hpos : (0 : ℝ) < 1 + Real.exp r := by positivity
  unfold sim
  rw [w2_eq, w1_eq, Ideal.exp_coe, ← EReal.coe_add, Ideal.div_coe hpos.ne', ← EReal.coe_mul]
  exact EReal.coe_pos.mpr (by positivity)

theorem sim_expo_pos (he : ∀ d n, IsReal (e d n)) (n m : Fin 512) : 0 < sim (expo e n m) :=
  sim_pos_of_isReal (isReal_expo e he n m)

/-- A weight chosen as the word of 10 where the tags agree or the similarity is positive, and as the zero word elsewhere,
    is the word of 10 wherever the similarity is positive. -/
theorem weight_eq_w10 (c : BitVec 1) {s : EReal} (hs : 0 < s) (z : EReal) :
    Scalar.select (IntOp.ori c (Ideal.cmp .ogt s 0)) w10 z = w10 := by
  have h1 : Ideal.cmp .ogt s 0 = 1#1 := by
    show BitVec.ofBool (decide (0 < s)) = 1#1
    rw [decide_eq_true hs]; rfl
  have h2 : IntOp.ori c 1#1 = 1#1 := by
    rcases BitVec.eq_zero_or_eq_one c with rfl | rfl <;> rfl
  rw [h1, h2]; exact if_pos rfl

/-- The reference's summand, the squared distance times the weight times the pair's mask, is the tag loss's. -/
theorem pair_term (he : ∀ d n, IsReal (e d n)) (c : BitVec 1) (z : EReal) (n m : Fin 512) :
    dis e ts n m * Scalar.select (IntOp.ori c (Ideal.cmp .ogt (sim (expo e n m)) 0)) w10 z * (mk n * mk m)
      = dis e ts n m * (mk n * mk m) * w10 := by
  rw [weight_eq_w10 c (sim_expo_pos e he n m) z, mul_right_comm]

end sample

end TagLoss

end
-- ==== Proof.RefStages.lean ====
/-
  The reference's stages at an index, in the tag loss's terms.

  For sample b and keypoints n, m (e the sample's embeddings, mk its visibility mask, ts its tag equalities):
  the visibility array at (b, n) is mk n and the pair mask at (b, n, m) is mk n * mk m; the tag-equality array at
  (b, n, m) is ts n m; the mean of squares at (b, n) is sq n; the scaled dot product at (b, n, m) is dot n m
  (dividing by 16 is multiplying by 1/16); the exponent is sq n + sq m - 2 * dot n m and the similarity
  2 / (1 + exp of it); the squared distance is dis n m; and, every embedding entry being real, the weighted
  masked summand is dis n m * (mk n * mk m) * 10.
-/
import proofs.«153252_j80238579023903_2_alg».proof.Proof.RefGather
import proofs.«153252_j80238579023903_2_alg».proof.Proof.RefAlgebra

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S32x16x256x256, .f32⟩ : BufTy).Contents (Elt Ideal))
  (x1 : (⟨S32x512x2, .f32⟩ : BufTy).Contents (Elt Ideal))
  (x2 x3 : (⟨S32x512, .i32⟩ : BufTy).Contents (Elt Ideal))

/-- The visibility mask of sample b. -/
abbrev mkOf (b : Fin 32) : Fin 512 → EReal := fun n => TagLoss.maskOf (x2 (ix2 b n))
/-- The tag equalities of sample b. -/
abbrev tsOf (b : Fin 32) : Fin 512 → Fin 512 → EReal := fun n m => TagLoss.sameTag (x3 (ix2 b n)) (x3 (ix2 b m))

/-! ## Masks and tags -/

theorem v25_at (b : Fin 32) (n : Fin 512) :
    val_main_v25 (F := Ideal) x2 (ix2 b n) = TagLoss.maskOf (x2 (ix2 b n)) := by
  rw [val_main_v25_apply, val_main_v24_apply, val_main_v23_apply, val_main_c_3_apply]
  rfl

theorem v30_at (b : Fin 32) (n m : Fin 512) :
    val_main_v30 (F := Ideal) x2 (ix3 b n m) = mkOf x2 b n * mkOf x2 b m := by
  have e1 : idx_main_v26 (idx_main_v28 (ix3 b n m)) = ix2 b n := by
    funext a; match a with | ⟨0, _⟩ => rfl | ⟨1, _⟩ => rfl
  have e2 : idx_main_v27 (idx_main_v29 (ix3 b n m)) = ix2 b m := by
    funext a; match a with | ⟨0, _⟩ => rfl | ⟨1, _⟩ => rfl
  rw [val_main_v30_apply, val_main_v28_apply, val_main_v26_apply, val_main_v29_apply, val_main_v27_apply, e1, e2,
    v25_at, v25_at]
  rfl

theorem v36_at (b : Fin 32) (n m : Fin 512) :
    val_main_v36 (F := Ideal) x3 (ix3 b n m) = tsOf x3 b n m := by
  have e1 : idx_main_v31 (idx_main_v33 (ix3 b n m)) = ix2 b n := by
    funext a; match a with | ⟨0, _⟩ => rfl | ⟨1, _⟩ => rfl
  have e2 : idx_main_v32 (idx_main_v34 (ix3 b n m)) = ix2 b m := by
    funext a; match a with | ⟨0, _⟩ => rfl | ⟨1, _⟩ => rfl
  rw [val_main_v36_apply, val_main_v35_apply, val_main_v33_apply, val_main_v31_apply, val_main_v34_apply,
    val_main_v32_apply, e1, e2]
  rfl

/-- The visible count of sample b. -/
theorem v65_at (b : Fin 32) :
    val_main_v65 (F := Ideal) x2 (ix1 b) = TagLoss.count (mkOf x2 b) := by
  have e : ∀ k : Fin 512, idx_main_v65 (ix1 b) k = ix2 b k := fun k => by
    funext a; match a with | ⟨0, _⟩ => rfl | ⟨1, _⟩ => rfl
  rw [val_main_v65_apply, val_main_cst_14_apply]
  simp only [e, v25_at]
  show Ideal.ofBits .f32 0x00000000#32 + _ = _
  rw [TagLoss.wZero_eq, zero_add]
  rfl

theorem v68_at (b : Fin 32) :
    val_main_v68 (F := Ideal) x2 (ix1 b) = max (TagLoss.count (mkOf x2 b) * TagLoss.count (mkOf x2 b)) TagLoss.w1 := by
  rw [val_main_v68_apply, val_main_v66_apply, val_main_v67_apply, val_main_cst_15_apply, v65_at]
  rfl

/-! ## Squares, dot products, the similarity -/

section
variable (hr : TagLoss.InRange x1)
include hr

theorem v40_at (b : Fin 32) (n : Fin 512) :
    val_main_v40 (F := Ideal) x0 x1 (ix2 b n) = TagLoss.sq (TagLoss.emb x0 x1 b) n := by
  have e : ∀ k : Fin 16, idx_main_v38 (ix2 b n) k = ix3 b k n := fun k => by
    funext a; match a with | ⟨0, _⟩ => rfl | ⟨1, _⟩ => rfl | ⟨2, _⟩ => rfl
  rw [val_main_v40_apply, val_main_v38_apply, val_main_v39_apply, val_main_cst_5_apply, val_main_cst_4_apply]
  simp only [val_main_v37_apply, e, v22_at x0 x1 hr]
  show Ideal.div (Ideal.ofBits .f32 0x00000000#32 + _) _ = _
  rw [TagLoss.wZero_eq, zero_add]
  rfl

theorem v43_at (b : Fin 32) (n m : Fin 512) :
    val_main_v43 (F := Ideal) x0 x1 (ix3 b n m) = TagLoss.dot (TagLoss.emb x0 x1 b) n m := by
  have el : ∀ k : Fin 16, lidx_main_v41 (ix3 b n m) k = ix3 b k n := fun k => by
    funext a; match a with | ⟨0, _⟩ => rfl | ⟨1, _⟩ => rfl | ⟨2, _⟩ => rfl
  have er : ∀ k : Fin 16, ridx_main_v41 (ix3 b n m) k = ix3 b k m := fun k => by
    funext a; match a with | ⟨0, _⟩ => rfl | ⟨1, _⟩ => rfl | ⟨2, _⟩ => rfl
  rw [val_main_v43_apply, val_main_v41_apply, val_main_v42_apply, val_main_cst_6_apply]
  simp only [el, er, v22_at x0 x1 hr]
  exact (TagLoss.mul_wInv16 _).symm

theorem v51_at (b : Fin 32) (n m : Fin 512) :
    val_main_v51 (F := Ideal) x0 x1 (ix3 b n m) = TagLoss.expo (TagLoss.emb x0 x1 b) n m := by
  have e1 : idx_main_v44 (idx_main_v46 (ix3 b n m)) = ix2 b n := by
    funext a; match a with | ⟨0, _⟩ => rfl | ⟨1, _⟩ => rfl
  have e2 : idx_main_v45 (idx_main_v47 (ix3 b n m)) = ix2 b m := by
    funext a; match a with | ⟨0, _⟩ => rfl | ⟨1, _⟩ => rfl
  rw [val_main_v51_apply, val_main_v48_apply, val_main_v46_apply, val_main_v44_apply, val_main_v47_apply,
    val_main_v45_apply, val_main_v50_apply, val_main_v49_apply, val_main_cst_7_apply, e1, e2,
    v40_at x0 x1 hr, v40_at x0 x1 hr, v43_at x0 x1 hr]
  rfl

theorem v56_at (b : Fin 32) (n m : Fin 512) :
    val_main_v56 (F := Ideal) x0 x1 (ix3 b n m) = TagLoss.sim (TagLoss.expo (TagLoss.emb x0 x1 b) n m) := by
  rw [val_main_v56_apply, val_main_v55_apply, val_main_cst_9_apply, val_main_v54_apply, val_main_v53_apply,
    val_main_cst_8_apply, val_main_v52_apply, v51_at x0 x1 hr]
  rfl

theorem v64_at (b : Fin 32) (n m : Fin 512) :
    val_main_v64 (F := Ideal) x0 x1 x3 (ix3 b n m) = TagLoss.dis (TagLoss.emb x0 x1 b) (tsOf x3 b) n m := by
  rw [val_main_v64_apply, val_main_v63_apply, v56_at x0 x1 hr, v36_at]
  rfl

/-- The weighted, masked summand at (b, n, m), every prediction entry being real. -/
theorem v70_at (h0 : TagLoss.AllReal x0) (b : Fin 32) (n m : Fin 512) :
    val_main_v70 (F := Ideal) x0 x1 x2 x3 (ix3 b n m)
      = TagLoss.dis (TagLoss.emb x0 x1 b) (tsOf x3 b) n m * (mkOf x2 b n * mkOf x2 b m) * TagLoss.w10 := by
  have he : ∀ d k, TagLoss.IsReal (TagLoss.emb x0 x1 b d k) := fun d k => h0 _
  rw [val_main_v70_apply, val_main_v69_apply, val_main_v62_apply, val_main_v61_apply, val_main_v58_apply,
    val_main_v60_apply, val_main_call0_v0_apply, val_main_call0_v1_apply, val_main_cst_12_apply,
    val_main_cst_13_apply, val_main_v57_apply, val_main_v59_apply, val_main_cst_10_apply, val_main_cst_11_apply,
    v64_at x0 x1 x3 hr, v56_at x0 x1 hr, v36_at, v30_at]
  simp only [Ideal.ofBits_def, Ideal.mulf_def, Ideal.cmpf_def, TagLoss.wZero_eq]
  exact TagLoss.pair_term _ _ _ he _ _ n m

end

end Cert.ReferenceIdeal.RefValue

end
-- ==== Proof.RefPairs.lean ====
/-
  Two sums read by coordinates.

  The reference sums a [32, 512, 512] array over its last two axes into [32]: at sample b the result is the initial
  value plus the sum of the entries whose first coordinate is b, and those entries are exactly the (b, n, m), so the
  sum is the double sum over n and m.  A sum over the index set of a [32] array is the sum over its one coordinate.
-/
import Idealize.ShloMosaic.PureOps.Ideal.Laws
import Idealize.ShloMosaic.Lib.ValueIdx

noncomputable section

open scoped BigOperators

namespace TagLoss

open Idealize.ShloMosaic Idealize.ShloMosaic.ValueIdx

abbrev SPairs : Shape := ⟨3, ![32, 512, 512]⟩
abbrev SSamples : Shape := ⟨1, ![32]⟩

/-- Dropping the two keypoint axes of (b, n, m) leaves b. -/
theorem drop_pairs (h : SPairs.ReducesTo [1, 2] SSamples) (i : SPairs.Idx) : h.drop i = ix1 (i 0) := by
  funext a
  match a with
  | ⟨0, _⟩ => exact Fin.ext (Shape.ReducesTo.drop_apply_val_of_eq h i 0 0)

/-- The sum over the two keypoint axes at sample b: the initial value plus the double sum over n and m. -/
theorem hostReduceAdd_pairs (h : SPairs.ReducesTo [1, 2] SSamples) (x : SPairs.Idx → EReal) (init : EReal) (b : Fin 32) :
    Ideal.hostReduceAdd h x init (ix1 b) = init + ∑ n : Fin 512, ∑ m : Fin 512, x (ix3 b n m) := by
  unfold Ideal.hostReduceAdd
  congr 1
  rw [← Finset.sum_product']
  refine Finset.sum_bij' (fun i _ => (i 1, i 2)) (fun p _ => ix3 b p.1 p.2) ?_ ?_ ?_ ?_ ?_
  · intro i _; exact Finset.mem_product.mpr ⟨Finset.mem_univ _, Finset.mem_univ _⟩
  · intro p _
    refine Finset.mem_filter.mpr ⟨Finset.mem_univ _, ?_⟩
    rw [drop_pairs]; rfl
  · intro i hi
    have h0 : ix1 (i 0) = ix1 b := by rw [← drop_pairs h i]; exact (Finset.mem_filter.mp hi).2
    have hb : i 0 = b := congrFun h0 0
    rw [← hb]; exact (eq_ix3 i).symm
  · intro p _; rfl
  · intro i hi
    have h0 : ix1 (i 0) = ix1 b := by rw [← drop_pairs h i]; exact (Finset.mem_filter.mp hi).2
    have hb : i 0 = b := congrFun h0 0
    rw [← hb]; exact congrArg x (eq_ix3 i)

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end TagLoss

end
-- ==== Proof.RefValue.lean ====
/-
  The reference computes the tag loss.

  Per sample b the reference sums the weighted, masked squared distances over both keypoint axes (zero plus the
  double sum over n and m), divides by max(count^2, 1), sums the 32 quotients from zero and divides by 32.  With
  every stage read at its index in the tag loss's terms this is the tag loss, provided the pixels are in range and
  every prediction entry is real.
-/
import proofs.«153252_j80238579023903_2_alg».proof.Proof.RefStages
import proofs.«153252_j80238579023903_2_alg».proof.Proof.RefPairs

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S32x16x256x256, .f32⟩ : BufTy).Contents (Elt Ideal))
  (x1 : (⟨S32x512x2, .f32⟩ : BufTy).Contents (Elt Ideal))
  (x2 x3 : (⟨S32x512, .i32⟩ : BufTy).Contents (Elt Ideal))
  (hr : TagLoss.InRange x1) (h0 : TagLoss.AllReal x0)
include hr h0

/-- The sum over both keypoint axes at sample b is the sample's total. -/
theorem v71_at (b : Fin 32) :
    val_main_v71 (F := Ideal) x0 x1 x2 x3 (ix1 b)
      = TagLoss.total (TagLoss.emb x0 x1 b) (mkOf x2 b) (tsOf x3 b) := by
  unfold val_main_v71
  simp only [Host.reduceAdd, Ideal.hostReduceAdd_def]
  rw [TagLoss.hostReduceAdd_pairs reducesTo_S32x512x512_S32_d1_2 _ _ b]
  simp only [v70_at x0 x1 x2 x3 hr h0]
  show Ideal.ofBits .f32 0x00000000#32 + _ = _
  rw [TagLoss.wZero_eq, zero_add]
  rfl

/-- The sample's loss. -/
theorem v72_at (b : Fin 32) :
    val_main_v72 (F := Ideal) x0 x1 x2 x3 (ix1 b)
      = TagLoss.perSample (TagLoss.emb x0 x1 b) (mkOf x2 b) (tsOf x3 b) := by
  rw [val_main_v72_apply, v71_at x0 x1 x2 x3 hr h0, v68_at]
  rfl

/-- The reference's result is the tag loss. -/
theorem ref_loss :
    val_main_v74 (F := Ideal) x0 x1 x2 x3 = fun _ => TagLoss.loss x0 x1 x2 x3 := by
  funext i
  rw [val_main_v74_apply, val_main_v73_apply, val_main_cst_17_apply, val_main_cst_18_apply, TagLoss.sum_idx1]
  simp only [v72_at x0 x1 x2 x3 hr h0]
  show Ideal.div (Ideal.ofBits .f32 0x00000000#32 + _) _ = _
  rw [TagLoss.wZero_eq, zero_add]
  rfl

end Cert.ReferenceIdeal.RefValue

end
-- ==== Proof.lean ====
/-
  The tag-loss kernel against its jnp reference, on the extended reals.

  Both programs compute, per sample, the embedding columns e[:, n] = pred[b, :, y_n, x_n] at the keypoints' pixels and
  from them the pairwise similarity loss; the result is the mean of the 32 samples' losses (the specification:
  Proof/Spec.lean). The reference gathers the columns directly; the kernel selects row y_n of the sample's planes by a
  product with a one-hot matrix and lane x_n by a lane sum against a one-hot mask, one sample per grid point. The two
  meet at the specification because: the pixel indices lie inside the plane (the precondition), so the kernel's clip,
  the reference's wrap of negative indices and the gather's clamp are all the identity; 0 · x = 0 on the extended
  reals, so a sum against a one-hot picks one term; multiplying by the word of 1/16 is dividing by the word of 16;
  and with real embeddings (the precondition: finite inputs) the similarity 2 / (1 + exp ·) is positive, so the
  reference's weight where(true_sim > 0 or pred_sim > 0, 10, 0) is 10. Sums are only regrouped (a double sum against a
  sum over pairs) and products reordered, which the extended reals allow without finiteness.
-/
import proofs.«153252_j80238579023903_2_alg».proof.Defs
import proofs.«153252_j80238579023903_2_alg».proof.Proof.Gen.Kernel
import proofs.«153252_j80238579023903_2_alg».proof.Proof.Gen.Kernel.Skeleton
import proofs.«153252_j80238579023903_2_alg».proof.Proof.Gen.Kernel.Launch
import proofs.«153252_j80238579023903_2_alg».proof.Proof.Gen.Kernel.Points
import proofs.«153252_j80238579023903_2_alg».proof.Proof.Gen.Kernel.Frame
import proofs.«153252_j80238579023903_2_alg».proof.Proof.Gen.KernelIdeal
import proofs.«153252_j80238579023903_2_alg».proof.Proof.Gen.KernelIdeal.Skeleton
import proofs.«153252_j80238579023903_2_alg».proof.Proof.Gen.KernelIdeal.Launch
import proofs.«153252_j80238579023903_2_alg».proof.Proof.Gen.KernelIdeal.Points
import proofs.«153252_j80238579023903_2_alg».proof.Proof.Gen.KernelIdeal.Frame
import proofs.«153252_j80238579023903_2_alg».proof.Proof.Gen.ReferenceIdeal
import proofs.«153252_j80238579023903_2_alg».proof.Proof.Gen.Pre_finite_inputs
import proofs.«153252_j80238579023903_2_alg».proof.Proof.RunP
import proofs.«153252_j80238579023903_2_alg».proof.Proof.ReadP
import proofs.«153252_j80238579023903_2_alg».proof.Proof.PreFacts
import proofs.«153252_j80238579023903_2_alg».proof.Proof.KerPoint
import proofs.«153252_j80238579023903_2_alg».proof.Proof.KoutRun
import proofs.«153252_j80238579023903_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference is a list of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)
/-- The idealization rewrote nothing. -/
theorem preserves : Cert.preserves_Kernel_KernelIdeal := trivial

/-- Both programs end at the tag loss of the argument arrays. -/
theorem algebraic : Cert.algebraic_KernelIdeal_ReferenceIdeal := by
  intro m ρ m' ρ' hpre hagree
  have hf : ∀ c : Dev Cert.KernelIdeal.nD,
      TagLoss.AllReal (m ((c.tc : Thread Cert.KernelIdeal.nD Cert.KernelIdeal.τ).loc Cert.KernelIdeal.main_arg0))
      ∧ TagLoss.InRange (m ((c.tc : Thread Cert.KernelIdeal.nD Cert.KernelIdeal.τ).loc Cert.KernelIdeal.main_arg1)) :=
    fun c => TagLoss.pre_facts _ _ _ _ (hpre c)
  refine ⟨fun c _ => TagLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact Cert.KernelIdeal.Kout.kernel_result m ρ (Cert.KernelIdeal.Point.P m)
      (Cert.KernelIdeal.Point.point_value m (fun c => (hf c).2))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v74_eq, (hagree c).1, (hagree c).2.1, (hagree c).2.2.1, (hagree c).2.2.2]
    exact Cert.ReferenceIdeal.RefValue.ref_loss _ _ _ _ (hf c).2 (hf c).1

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
